-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x512 : Shape := ⟨4, ![8, 64, 512, 512]⟩
abbrev S1x1x64x64x1x1 : Shape := ⟨6, ![1, 1, 64, 64, 1, 1]⟩
abbrev S_ : Shape := ⟨0, ![]⟩

class Facts : Prop where
  bcast_S_S8x64x512x512 : S_.BroadcastsInDim S8x64x512x512 (![] : Fin 0 → Fin S8x64x512x512.rank)
  reducesTo_S8x64x512x512_S_d0_1_2_3 : S8x64x512x512.ReducesTo [0, 1, 2, 3] S_
  h_S_ : 0 < S_.numel
  bcast_S_S1x1x64x64x1x1 : S_.BroadcastsInDim S1x1x64x64x1x1 (![] : Fin 0 → Fin S1x1x64x64x1x1.rank)
  reducesTo_S1x1x64x64x1x1_S_d0_1_2_3_4_5 : S1x1x64x64x1x1.ReducesTo [0, 1, 2, 3, 4, 5] S_

variable [Facts]

def fn {F : FTy → Type} [FloatOps F] (main_arg0 : FVec F S8x64x512x512 .f32) (main_arg1 : FVec F S1x1x64x64x1x1 .f32) : IVec S_ 1 :=
  let main_v0 : FVec F S8x64x512x512 .f32 := Host.absf main_arg0
  let main_cst : FVec F S_ .f32 := constant S_ .f32 0x7F800000#32
  let main_v1 : FVec F S8x64x512x512 .f32 := broadcastInDim S8x64x512x512 ![] bcast_S_S8x64x512x512 main_cst
  let main_v2 : IVec S8x64x512x512 1 := cmpf .olt main_v0 main_v1
  let main_c : IVec S_ 1 := constantI S_ 1 1#1
  let main_v3 : IVec S_ 1 := (fun x v => Host.reduce IntOp.andi x v reducesTo_S8x64x512x512_S_d0_1_2_3 h_S_) main_v2 main_c
  let main_v4 : FVec F S1x1x64x64x1x1 .f32 := Host.absf main_arg1
  let main_cst_0 : FVec F S_ .f32 := constant S_ .f32 0x7F800000#32
  let main_v5 : FVec F S1x1x64x64x1x1 .f32 := broadcastInDim S1x1x64x64x1x1 ![] bcast_S_S1x1x64x64x1x1 main_cst_0
  let main_v6 : IVec S1x1x64x64x1x1 1 := cmpf .olt main_v4 main_v5
  let main_c_1 : IVec S_ 1 := constantI S_ 1 1#1
  let main_v7 : IVec S_ 1 := (fun x v => Host.reduce IntOp.andi x v reducesTo_S1x1x64x64x1x1_S_d0_1_2_3_4_5 h_S_) main_v6 main_c_1
  let main_v8 : IVec S_ 1 := andi main_v3 main_v7
  main_v8
-- ==== Kernel.lean ====
abbrev S8x64x512x512 : Shape := ⟨4, ![8, 64, 512, 512]⟩
abbrev S1x1x64x64x1x1 : Shape := ⟨6, ![1, 1, 64, 64, 1, 1]⟩
abbrev S64 : Shape := ⟨1, ![64]⟩
abbrev S64x1x1 : Shape := ⟨3, ![64, 1, 1]⟩
abbrev S1x64x1 : Shape := ⟨3, ![1, 64, 1]⟩
abbrev S1x1x64 : Shape := ⟨3, ![1, 1, 64]⟩
abbrev S64x64x1 : Shape := ⟨3, ![64, 64, 1]⟩
abbrev S_ : Shape := ⟨0, ![]⟩
abbrev S64x64x64 : Shape := ⟨3, ![64, 64, 64]⟩
abbrev S64x64x1x1 : Shape := ⟨4, ![64, 64, 1, 1]⟩
abbrev S1x4x512x512 : Shape := ⟨4, ![1, 4, 512, 512]⟩
abbrev S4x64x64 : Shape := ⟨3, ![4, 64, 64]⟩
abbrev S4x64x1x1 : Shape := ⟨4, ![4, 64, 1, 1]⟩
abbrev S4x512x512 : Shape := ⟨3, ![4, 512, 512]⟩
abbrev S4x8x64x8x64 : Shape := ⟨5, ![4, 8, 64, 8, 64]⟩
abbrev S4x8x8x64x64 : Shape := ⟨5, ![4, 8, 8, 64, 64]⟩
abbrev S4x64x64x64 : Shape := ⟨4, ![4, 64, 64, 64]⟩
abbrev S4x64x4096 : Shape := ⟨3, ![4, 64, 4096]⟩

abbrev nBuf : Space → Nat
  | .hbm => 39
  | .vmem => 8
  | .smem => 0
  | _ => 0

abbrev bufTy : (tb : Table) → Fin (tcTables nBuf tb) → BufTy
  | .hbm, ⟨0, _⟩ => ⟨S8x64x512x512, .f32⟩
  | .hbm, ⟨1, _⟩ => ⟨S1x1x64x64x1x1, .f32⟩
  | .hbm, ⟨2, _⟩ => ⟨S64, .i32⟩
  | .hbm, ⟨3, _⟩ => ⟨S64x1x1, .i32⟩
  | .hbm, ⟨4, _⟩ => ⟨S64, .i32⟩
  | .hbm, ⟨5, _⟩ => ⟨S1x64x1, .i32⟩
  | .hbm, ⟨6, _⟩ => ⟨S64, .i32⟩
  | .hbm, ⟨7, _⟩ => ⟨S1x1x64, .i32⟩
  | .hbm, ⟨8, _⟩ => ⟨S64x64x1, .i32⟩
  | .hbm, ⟨9, _⟩ => ⟨S64x64x1, .i32⟩
  | .hbm, ⟨10, _⟩ => ⟨S64x64x1, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S64x64x1, .i32⟩
  | .hbm, ⟨18, _⟩ => ⟨S64x64x1, .i32⟩
  | .hbm, ⟨19, _⟩ => ⟨S_, .i32⟩
  | .hbm, ⟨20, _⟩ => ⟨S64x64x1, .i32⟩
  | .hbm, ⟨21, _⟩ => ⟨S64x64x1, .i1⟩
  | .hbm, ⟨22, _⟩ => ⟨S_, .i32⟩
  | .hbm, ⟨23, _⟩ => ⟨S64x64x1, .i32⟩
  | .hbm, ⟨24, _⟩ => ⟨S64x64x1, .i1⟩
  | .hbm, ⟨25, _⟩ => ⟨S_, .i32⟩
  | .hbm, ⟨26, _⟩ => ⟨S_, .i1⟩
  | .hbm, ⟨27, _⟩ => ⟨S64x64x1, .i1⟩
  | .hbm, ⟨28, _⟩ => ⟨S64x64x1, .i1⟩
  | .hbm, ⟨29, _⟩ => ⟨S64x64x1, .i1⟩
  | .hbm, ⟨30, _⟩ => ⟨S64x64x1, .i32⟩
  | .hbm, ⟨31, _⟩ => ⟨S64x64x1, .i32⟩
  | .hbm, ⟨32, _⟩ => ⟨S64x64x1, .i32⟩
  | .hbm, ⟨33, _⟩ => ⟨S64x64x64, .i32⟩
  | .hbm, ⟨34, _⟩ => ⟨S64x64x64, .i32⟩
  | .hbm, ⟨35, _⟩ => ⟨S64x64x64, .i1⟩
  | .hbm, ⟨36, _⟩ => ⟨S64x64x64, .f32⟩
  | .hbm, ⟨37, _⟩ => ⟨S64x64x1x1, .f32⟩
  | .hbm, ⟨38, _⟩ => ⟨S8x64x512x512, .f32⟩
  | .local _ .vmem, ⟨0, _⟩ => ⟨S1x4x512x512, .f32⟩
  | .local _ .vmem, ⟨1, _⟩ => ⟨S1x4x512x512, .f32⟩
  | .local _ .vmem, ⟨2, _⟩ => ⟨S4x64x64, .f32⟩
  | .local _ .vmem, ⟨3, _⟩ => ⟨S4x64x64, .f32⟩
  | .local _ .vmem, ⟨4, _⟩ => ⟨S4x64x1x1, .f32⟩
  | .local _ .vmem, ⟨5, _⟩ => ⟨S4x64x1x1, .f32⟩
  | .local _ .vmem, ⟨6, _⟩ => ⟨S1x4x512x512, .f32⟩
  | .local _ .vmem, ⟨7, _⟩ => ⟨S1x4x512x512, .f32⟩
  | _, _ => ⟨S8x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x64x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S64_S64x1x1_0 : S64.BroadcastsInDim S64x1x1 (![0] : Fin 1 → Fin S64x1x1.rank)
  bcast_S64_S1x64x1_1 : S64.BroadcastsInDim S1x64x1 (![1] : Fin 1 → Fin S1x64x1.rank)
  bcast_S64_S1x1x64_2 : S64.BroadcastsInDim S1x1x64 (![2] : Fin 1 → Fin S1x1x64.rank)
  bcast_S1x64x1_S64x64x1_0_1_2 : S1x64x1.BroadcastsInDim S64x64x1 (![0, 1, 2] : Fin 3 → Fin S64x64x1.rank)
  bcast_S64x1x1_S64x64x1_0_1_2 : S64x1x1.BroadcastsInDim S64x64x1 (![0, 1, 2] : Fin 3 → Fin S64x64x1.rank)
  bcast_S_S64x64x1 : S_.BroadcastsInDim S64x64x1 (![] : Fin 0 → Fin S64x64x1.rank)
  bcast_S1x1x64_S64x64x64_0_1_2 : S1x1x64.BroadcastsInDim S64x64x64 (![0, 1, 2] : Fin 3 → Fin S64x64x64.rank)
  bcast_S64x64x1_S64x64x64_0_1_2 : S64x64x1.BroadcastsInDim S64x64x64 (![0, 1, 2] : Fin 3 → Fin S64x64x64.rank)
  shapeCasts_S1x1x64x64x1x1_S64x64x1x1 : S1x1x64x64x1x1.ShapeCasts S64x64x1x1
  inb_S1x4x512x512_S1x4x512x512_0_0_0_0 : ∀ a, (![0, 0, 0, 0] : Fin 4 → Nat) a + S1x4x512x512.size a ≤ S1x4x512x512.size a
  h_S1x4x512x512 : 0 < S1x4x512x512.numel
  shapeCasts_S1x4x512x512_S4x512x512 : S1x4x512x512.ShapeCasts S4x512x512
  shapeCasts_S4x512x512_S4x8x64x8x64 : S4x512x512.ShapeCasts S4x8x64x8x64
  transposes_S4x8x64x8x64_p0_1_3_2_4_S4x8x8x64x64 : S4x8x64x8x64.Transposes [0, 1, 3, 2, 4] S4x8x8x64x64
  shapeCasts_S4x8x8x64x64_S4x64x64x64 : S4x8x8x64x64.ShapeCasts S4x64x64x64
  inb_S4x64x1x1_S4x64x1x1_0_0_0_0 : ∀ a, (![0, 0, 0, 0] : Fin 4 → Nat) a + S4x64x1x1.size a ≤ S4x64x1x1.size a
  h_S4x64x1x1 : 0 < S4x64x1x1.numel
  shapeCasts_S4x64x1x1_S4x64x1x1 : S4x64x1x1.ShapeCasts S4x64x1x1
  broadcasts_S4x64x1x1_S4x64x64x64 : S4x64x1x1.Broadcasts S4x64x64x64
  shapeCasts_S4x64x64x64_S4x64x4096 : S4x64x64x64.ShapeCasts S4x64x4096
  inb_S4x64x64_S4x64x64_0_0_0 : ∀ a, (![0, 0, 0] : Fin 3 → Nat) a + S4x64x64.size a ≤ S4x64x64.size a
  h_S4x64x64 : 0 < S4x64x64.numel
  shapeCasts_S4x64x64_S4x64x64 : S4x64x64.ShapeCasts S4x64x64
  bitsLt_bf16_f32 : FTy.bits .bf16 < FTy.bits .f32
  shapeCasts_S4x64x4096_S4x8x8x64x64 : S4x64x4096.ShapeCasts S4x8x8x64x64
  transposes_S4x8x8x64x64_p0_1_3_2_4_S4x8x64x8x64 : S4x8x8x64x64.Transposes [0, 1, 3, 2, 4] S4x8x64x8x64
  shapeCasts_S4x8x64x8x64_S4x512x512 : S4x8x64x8x64.ShapeCasts S4x512x512
  shapeCasts_S4x512x512_S1x4x512x512 : S4x512x512.ShapeCasts S1x4x512x512
  dot_S4x64x64_S4x64x4096_S4x64x4096_2_1_1_2_0_0_wf : DotDims.WF S4x64x64 S4x64x4096 S4x64x4096 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S8x64x512x512.size a
  hwx0_0 : ∀ i : grid0.Coords, EltTy.bits .f32 = 32 ∨ (Rect.block (s := S8x64x512x512) S1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S64x64x64.size a
  hwx0_1 : ∀ i : grid0.Coords, EltTy.bits .f32 = 32 ∨ (Rect.block (s := S64x64x64) S4x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x1x1.size a ≤ S64x64x1x1.size a
  hwx0_2 : ∀ i : grid0.Coords, EltTy.bits .f32 = 32 ∨ (Rect.block (s := S64x64x1x1) S4x64x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x512x512.size a ≤ S8x64x512x512.size a
  hwx0_3 : ∀ i : grid0.Coords, EltTy.bits .f32 = 32 ∨ (Rect.block (s := S8x64x512x512) S1x4x512x512.size (cc0_transform_3 i) (hinb0_3 i)).WholeWords (EltTy.packing .f32)

variable [Facts₀]

def dot_S4x64x64_S4x64x4096_S4x64x4096_2_1_1_2_0_0 : DotDims S4x64x64 S4x64x4096 S4x64x4096 where
  lhsContracting := [2]
  rhsContracting := [1]
  lhsNonContracting := [1]
  rhsNonContracting := [2]
  lhsBatch := [0]
  rhsBatch := [0]
  wf := dot_S4x64x64_S4x64x4096_S4x64x4096_2_1_1_2_0_0_wf

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4x64x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x4x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x512x512 : Shape := ⟨4, ![8, 64, 512, 512]⟩
abbrev S1x1x64x64x1x1 : Shape := ⟨6, ![1, 1, 64, 64, 1, 1]⟩
abbrev S8x64x8x64x8x64 : Shape := ⟨6, ![8, 64, 8, 64, 8, 64]⟩
abbrev S8x64x64x64x8x8 : Shape := ⟨6, ![8, 64, 64, 64, 8, 8]⟩
abbrev S8x64x64x64x64 : Shape := ⟨5, ![8, 64, 64, 64, 64]⟩
abbrev S64x64x1x1 : Shape := ⟨4, ![64, 64, 1, 1]⟩
abbrev S1x64x64x1x1 : Shape := ⟨5, ![1, 64, 64, 1, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x64x1 : Shape := ⟨3, ![64, 64, 1]⟩
abbrev S1 : Shape := ⟨1, ![1]⟩
abbrev S1x1x1 : Shape := ⟨3, ![1, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S8x64x512x512, .f32⟩
  | .hbm, ⟨1, _⟩ => ⟨S1x1x64x64x1x1, .f32⟩
  | .hbm, ⟨2, _⟩ => ⟨S8x64x8x64x8x64, .f32⟩
  | .hbm, ⟨3, _⟩ => ⟨S8x64x64x64x8x8, .f32⟩
  | .hbm, ⟨4, _⟩ => ⟨S8x64x64x64x64, .f32⟩
  | .hbm, ⟨5, _⟩ => ⟨S8x64x64x64x64, .f32⟩
  | .hbm, ⟨6, _⟩ => ⟨S64x64x1x1, .f32⟩
  | .hbm, ⟨7, _⟩ => ⟨S1x64x64x1x1, .f32⟩
  | .hbm, ⟨8, _⟩ => ⟨S8x64x64x64x64, .f32⟩
  | .hbm, ⟨9, _⟩ => ⟨S8x64x64x64x64, .f32⟩
  | .hbm, ⟨10, _⟩ => ⟨S64, .i32⟩
  | .hbm, ⟨11, _⟩ => ⟨S64x1, .i32⟩
  | .hbm, ⟨12, _⟩ => ⟨S64, .i32⟩
  | .hbm, ⟨13, _⟩ => ⟨S1x64, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i1⟩
  | .hbm, ⟨28, _⟩ => ⟨S_, .i32⟩
  | .hbm, ⟨29, _⟩ => ⟨S64x64, .i32⟩
  | .hbm, ⟨30, _⟩ => ⟨S64x64, .i1⟩
  | .hbm, ⟨31, _⟩ => ⟨S_, .i32⟩
  | .hbm, ⟨32, _⟩ => ⟨S_, .i1⟩
  | .hbm, ⟨33, _⟩ => ⟨S64x64, .i1⟩
  | .hbm, ⟨34, _⟩ => ⟨S64x64, .i1⟩
  | .hbm, ⟨35, _⟩ => ⟨S64x64, .i1⟩
  | .hbm, ⟨36, _⟩ => ⟨S64x64, .i32⟩
  | .hbm, ⟨37, _⟩ => ⟨S64x64, .i32⟩
  | .hbm, ⟨38, _⟩ => ⟨S64x64, .i32⟩
  | .hbm, ⟨39, _⟩ => ⟨S1x64x64x1x1, .i32⟩
  | .hbm, ⟨40, _⟩ => ⟨S_, .i32⟩
  | .hbm, ⟨41, _⟩ => ⟨S1x64x64x1x1, .i32⟩
  | .hbm, ⟨42, _⟩ => ⟨S1x64x64x1x1, .i1⟩
  | .hbm, ⟨43, _⟩ => ⟨S_, .i32⟩
  | .hbm, ⟨44, _⟩ => ⟨S1x64x64x1x1, .i32⟩
  | .hbm, ⟨45, _⟩ => ⟨S1x64x64x1x1, .i32⟩
  | .hbm, ⟨46, _⟩ => ⟨S1x64x64x1x1, .i32⟩
  | .hbm, ⟨47, _⟩ => ⟨S64x64x1, .i32⟩
  | .hbm, ⟨48, _⟩ => ⟨S1, .i32⟩
  | .hbm, ⟨49, _⟩ => ⟨S_, .i32⟩
  | .hbm, ⟨50, _⟩ => ⟨S64x64x1, .i32⟩
  | .hbm, ⟨51, _⟩ => ⟨S64x64x1, .i1⟩
  | .hbm, ⟨52, _⟩ => ⟨S1x1x1, .i32⟩
  | .hbm, ⟨53, _⟩ => ⟨S64x64x1, .i32⟩
  | .hbm, ⟨54, _⟩ => ⟨S64x64x1, .i1⟩
  | .hbm, ⟨55, _⟩ => ⟨S64x64x1, .i1⟩
  | .hbm, ⟨56, _⟩ => ⟨S_, .i1⟩
  | .hbm, ⟨57, _⟩ => ⟨S64x64, .i1⟩
  | .hbm, ⟨58, _⟩ => ⟨S8x64x64x64x64, .f32⟩
  | .hbm, ⟨59, _⟩ => ⟨S8x64x64x64x64, .i1⟩
  | .hbm, ⟨60, _⟩ => ⟨S_, .f32⟩
  | .hbm, ⟨61, _⟩ => ⟨S8x64x64x64x64, .f32⟩
  | .hbm, ⟨62, _⟩ => ⟨S8x64x64x64x64, .f32⟩
  | .hbm, ⟨63, _⟩ => ⟨S8x64x64x64x64, .f32⟩
  | .hbm, ⟨64, _⟩ => ⟨S8x64x64x64x8x8, .f32⟩
  | .hbm, ⟨65, _⟩ => ⟨S8x64x8x64x8x64, .f32⟩
  | .hbm, ⟨66, _⟩ => ⟨S8x64x512x512, .f32⟩
  | _, _ => ⟨S8x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v15 : Ref sig .tc := ⟨.hbm, 38, rfl⟩
abbrev main_v16 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩

abbrev nD : Nat := 1
abbrev τ : Topo := Topo.v7x

variable {F : FTy → Type} [FloatOps F]

class Facts₀ : Prop where
  shapeCasts_S8x64x512x512_S8x64x8x64x8x64 : S8x64x512x512.ShapeCasts S8x64x8x64x8x64
  transposes_S8x64x8x64x8x64_S8x64x64x64x8x8_0_1_3_5_2_4 : S8x64x8x64x8x64.Transposes [0, 1, 3, 5, 2, 4] S8x64x64x64x8x8
  shapeCasts_S8x64x64x64x8x8_S8x64x64x64x64 : S8x64x64x64x8x8.ShapeCasts S8x64x64x64x64
  transposes_S8x64x64x64x64_S8x64x64x64x64_0_1_4_2_3 : S8x64x64x64x64.Transposes [0, 1, 4, 2, 3] S8x64x64x64x64
  shapeCasts_S1x1x64x64x1x1_S64x64x1x1 : S1x1x64x64x1x1.ShapeCasts S64x64x1x1
  bcast_S64x64x1x1_S1x64x64x1x1_1_2_3_4 : S64x64x1x1.BroadcastsInDim S1x64x64x1x1 (![1, 2, 3, 4] : Fin 4 → Fin S1x64x64x1x1.rank)
  bcast_S1x64x64x1x1_S8x64x64x64x64_0_1_2_3_4 : S1x64x64x1x1.BroadcastsInDim S8x64x64x64x64 (![0, 1, 2, 3, 4] : Fin 5 → Fin S8x64x64x64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S64x64_S1x64x64x1x1_1_2 : S64x64.BroadcastsInDim S1x64x64x1x1 (![1, 2] : Fin 2 → Fin S1x64x64x1x1.rank)
  bcast_S_S1x64x64x1x1 : S_.BroadcastsInDim S1x64x64x1x1 (![] : Fin 0 → Fin S1x64x64x1x1.rank)
  shapeCasts_S1x64x64x1x1_S64x64x1 : S1x64x64x1x1.ShapeCasts S64x64x1
  bcast_S_S64x64x1 : S_.BroadcastsInDim S64x64x1 (![] : Fin 0 → Fin S64x64x1.rank)
  bcast_S1_S1x1x1_2 : S1.BroadcastsInDim S1x1x1 (![2] : Fin 1 → Fin S1x1x1.rank)
  bcast_S1x1x1_S64x64x1_0_1_2 : S1x1x1.BroadcastsInDim S64x64x1 (![0, 1, 2] : Fin 3 → Fin S64x64x1.rank)
  reducesTo_S64x64x1_S64x64_d2 : S64x64x1.ReducesTo [2] S64x64
  h_S_ : 0 < S_.numel
  bcast_S64x64_S8x64x64x64x64_1_2 : S64x64.BroadcastsInDim S8x64x64x64x64 (![1, 2] : Fin 2 → Fin S8x64x64x64x64.rank)
  bcast_S_S8x64x64x64x64 : S_.BroadcastsInDim S8x64x64x64x64 (![] : Fin 0 → Fin S8x64x64x64x64.rank)
  transposes_S8x64x64x64x64_S8x64x64x64x64_0_1_3_4_2 : S8x64x64x64x64.Transposes [0, 1, 3, 4, 2] S8x64x64x64x64
  shapeCasts_S8x64x64x64x64_S8x64x64x64x8x8 : S8x64x64x64x64.ShapeCasts S8x64x64x64x8x8
  transposes_S8x64x64x64x8x8_S8x64x8x64x8x64_0_1_4_2_5_3 : S8x64x64x64x8x8.Transposes [0, 1, 4, 2, 5, 3] S8x64x8x64x8x64
  shapeCasts_S8x64x8x64x8x64_S8x64x512x512 : S8x64x8x64x8x64.ShapeCasts S8x64x512x512
  gather_S8x64x64x64x64_S64x64x1_S8x64x64x64x64_034_2_1_0_2_2_8116464_wf : GatherDims.WF S8x64x64x64x64 S64x64x1 S8x64x64x64x64 [0, 3, 4] [2] [1] [2] [0] 2 ![8, 1, 1, 64, 64]

variable [Facts₀]

def gather_S8x64x64x64x64_S64x64x1_S8x64x64x64x64_034_2_1_0_2_2_8116464 : GatherDims S8x64x64x64x64 S64x64x1 S8x64x64x64x64 where
  offsetDims := [0, 3, 4]
  collapsedSliceDims := [2]
  operandBatchingDims := [1]
  startIndicesBatchingDims := [0]
  startIndexMap := [2]
  indexVectorDim := 2
  sliceSizes := ![8, 1, 1, 64, 64]
  wf := gather_S8x64x64x64x64_S64x64x1_S8x64x64x64x64_034_2_1_0_2_2_8116464_wf

class Facts : Prop extends Facts₀ where

variable [Facts]
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.Payload.lean ====
/-
  What the kernel's body stores, element by element.

  A block is four channels of the image. The body cuts each channel into its 64 patches (`patches`: two reshapes
  around a transpose), raises patch `q` of channel `c` by the bias `x2[c, q]` and flattens every patch to a row
  of 4096 numbers (`raised`), multiplies, channel by channel, the 64 × 64 selection matrix `x1[c]` with the
  64 × 4096 matrix of flattened patches (`mixed`), and lays the rows back as patches of the image (`laidBack`).
  At the ideal values the product's entry `(c, p, a·64 + d)` is `∑ q, x1[c, p, q] · (patch q of channel c at (a, d) + x2[c, q])`.
-/
import proofs.«120854_j83949430768099_1_alg».proof.Proof.Gen.KernelIdeal.Skeleton
import proofs.«120854_j83949430768099_1_alg».proof.Proof.LibContract1
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- The block's four channels as patches: entry `(c, q, a, d)` is the channel's element at row `64 (q / 8) + a`,
    column `64 (q % 8) + d`. -/
def patches (x0 : Vec Ideal S1x4x512x512 .f32) : FVec Ideal S4x64x64x64 .f32 :=
  shapeCast S4x64x64x64
    (transpose S4x8x8x64x64 [0, 1, 3, 2, 4]
      (shapeCast S4x8x64x8x64 (shapeCast S4x512x512 x0 shapeCasts_S1x4x512x512_S4x512x512) shapeCasts_S4x512x512_S4x8x64x8x64)
      transposes_S4x8x64x8x64_p0_1_3_2_4_S4x8x8x64x64)
    shapeCasts_S4x8x8x64x64_S4x64x64x64

/-- The raised patches, each flattened to a row. -/
def raised (x0 : Vec Ideal S1x4x512x512 .f32) (x2 : Vec Ideal S4x64x1x1 .f32) : FVec Ideal S4x64x4096 .f32 :=
  shapeCast S4x64x4096
    (addf (patches x0) (broadcastTo S4x64x64x64 (shapeCast S4x64x1x1 x2 shapeCasts_S4x64x1x1_S4x64x1x1) broadcasts_S4x64x1x1_S4x64x64x64))
    shapeCasts_S4x64x64x64_S4x64x4096

/-- The selection matrices applied to the rows of raised patches. -/
def mixed (x0 : Vec Ideal S1x4x512x512 .f32) (x2 : Vec Ideal S4x64x1x1 .f32) (x1 : Vec Ideal S4x64x64 .f32) : FVec Ideal S4x64x4096 .f32 :=
  matmul dot_S4x64x64_S4x64x4096_S4x64x4096_2_1_1_2_0_0 none
    (truncf .bf16 (shapeCast S4x64x64 x1 shapeCasts_S4x64x64_S4x64x64) bitsLt_bf16_f32)
    (truncf .bf16 (raised x0 x2) bitsLt_bf16_f32)
    (constant S4x64x4096 .f32 0x00000000#32)

/-- Rows of flattened patches laid back as the image block. -/
def laidBack (y : FVec Ideal S4x64x4096 .f32) : FVec Ideal S1x4x512x512 .f32 :=
  shapeCast S1x4x512x512
    (shapeCast S4x512x512
      (transpose S4x8x64x8x64 [0, 1, 3, 2, 4] (shapeCast S4x8x8x64x64 y shapeCasts_S4x64x4096_S4x8x8x64x64)
        transposes_S4x8x8x64x64_p0_1_3_2_4_S4x8x64x8x64)
      shapeCasts_S4x8x64x8x64_S4x512x512)
    shapeCasts_S4x512x512_S1x4x512x512

/-- The stored value is these four steps composed. -/
theorem pay_eq (x0 : Vec Ideal S1x4x512x512 .f32) (x2 : Vec Ideal S4x64x1x1 .f32) (x1 : Vec Ideal S4x64x64 .f32) :
    k0_pay1 (F := Ideal) x0 x2 x1 = laidBack (mixed x0 x2 x1) := rfl

theorem patches_apply (x0 : Vec Ideal S1x4x512x512 .f32) (c : Fin 4) (q a d : Fin 64) :
    patches x0 (ix4 c q a d)
      = x0 (ix4 (0 : Fin 1) c ⟨q.val / 8 * 64 + a.val, by omega⟩ ⟨q.val % 8 * 64 + d.val, by omega⟩) := by
  unfold patches
  refine (shapeCast_apply _ _ (ix4 c q a d) (ix5 c ⟨q.val / 8, by omega⟩ ⟨q.val % 8, by omega⟩ a d) ?_).trans ?_
  · rw [Shape.rowMajor_val_five, Shape.rowMajor_val_four]
    show (((c.val * 8 + q.val / 8) * 8 + q.val % 8) * 64 + a.val) * 64 + d.val = ((c.val * 64 + q.val) * 64 + a.val) * 64 + d.val
    omega
  refine (transpose_apply _ _ _ _ (ix5 c ⟨q.val / 8, by omega⟩ a ⟨q.val % 8, by omega⟩ d) ?_).trans ?_
  · intro b
    match b with
    | ⟨0, _⟩ => rfl
    | ⟨1, _⟩ => rfl
    | ⟨2, _⟩ => rfl
    | ⟨3, _⟩ => rfl
    | ⟨4, _⟩ => rfl
  refine (shapeCast_apply _ _ _ (ix3 c ⟨q.val / 8 * 64 + a.val, by omega⟩ ⟨q.val % 8 * 64 + d.val, by omega⟩) ?_).trans ?_
  · rw [Shape.rowMajor_val_three, Shape.rowMajor_val_five]
    show (c.val * 512 + (q.val / 8 * 64 + a.val)) * 512 + (q.val % 8 * 64 + d.val)
      = (((c.val * 8 + q.val / 8) * 64 + a.val) * 8 + q.val % 8) * 64 + d.val
    omega
  refine shapeCast_apply _ _ _ _ ?_
  rw [Shape.rowMajor_val_four, Shape.rowMajor_val_three]
  show ((0 * 4 + c.val) * 512 + (q.val / 8 * 64 + a.val)) * 512 + (q.val % 8 * 64 + d.val)
    = (c.val * 512 + (q.val / 8 * 64 + a.val)) * 512 + (q.val % 8 * 64 + d.val)
  omega

theorem raised_apply (x0 : Vec Ideal S1x4x512x512 .f32) (x2 : Vec Ideal S4x64x1x1 .f32) (c : Fin 4) (q a d : Fin 64) :
    raised x0 x2 (ix3 c q ⟨a.val * 64 + d.val, by omega⟩)
      = x0 (ix4 (0 : Fin 1) c ⟨q.val / 8 * 64 + a.val, by omega⟩ ⟨q.val % 8 * 64 + d.val, by omega⟩)
        + x2 (ix4 c q (0 : Fin 1) (0 : Fin 1)) := by
  unfold raised
  refine (shapeCast_apply _ _ _ (ix4 c q a d) ?_).trans ?_
  · rw [Shape.rowMajor_val_four, Shape.rowMajor_val_three]
    show ((c.val * 64 + q.val) * 64 + a.val) * 64 + d.val = (c.val * 64 + q.val) * 4096 + (a.val * 64 + d.val)
    omega
  rw [addf_apply, patches_apply]
  refine congrArg _ ?_
  refine (broadcastTo_apply _ _ _ (ix4 c q (0 : Fin 1) (0 : Fin 1)) ?_).trans ?_
  · intro b
    match b with
    | ⟨0, _⟩ => rfl
    | ⟨1, _⟩ => rfl
    | ⟨2, _⟩ => rfl
    | ⟨3, _⟩ => rfl
  rw [shapeCast_self]

theorem mixed_apply (x0 : Vec Ideal S1x4x512x512 .f32) (x2 : Vec Ideal S4x64x1x1 .f32) (x1 : Vec Ideal S4x64x64 .f32)
    (c : Fin 4) (p a d : Fin 64) :
    mixed x0 x2 x1 (ix3 c p ⟨a.val * 64 + d.val, by omega⟩)
      = ∑ q : Fin 64, x1 (ix3 c p q)
          * (x0 (ix4 (0 : Fin 1) c ⟨q.val / 8 * 64 + a.val, by omega⟩ ⟨q.val % 8 * 64 + d.val, by omega⟩)
              + x2 (ix4 c q (0 : Fin 1) (0 : Fin 1))) := by
  unfold mixed
  refine (Cert.LibContract1.matmul_zero_single dot_S4x64x64_S4x64x4096_S4x64x4096_2_1_1_2_0_0 64 rfl rfl _ _ _
    (fun q => ix3 c p q) (fun q => ix3 c q ⟨a.val * 64 + d.val, by omega⟩) ?_ ?_).trans ?_
  · intro q
    funext b
    refine Fin.ext ?_
    match b with
    | ⟨0, _⟩ => rfl
    | ⟨1, _⟩ => rfl
    | ⟨2, _⟩ =>
      exact (DotDims.lhsIdx_val_of_single _ rfl _ _).trans (contrEquiv1_symm_val _ 64 rfl rfl q)
  · intro q
    funext b
    refine Fin.ext ?_
    match b with
    | ⟨0, _⟩ => rfl
    | ⟨1, _⟩ =>
      exact (DotDims.rhsIdx_val_of_single _ rfl _ _).trans (contrEquiv1_symm_val _ 64 rfl rfl q)
    | ⟨2, _⟩ => rfl
  refine Finset.sum_congr rfl fun q _ => ?_
  rw [truncf_apply, truncf_apply, shapeCast_self, raised_apply]

theorem laidBack_apply (y : FVec Ideal S4x64x4096 .f32) (c : Fin 4) (h w : Fin 512) :
    laidBack y (ix4 (0 : Fin 1) c h w)
      = y (ix3 c ⟨h.val / 64 * 8 + w.val / 64, by omega⟩ ⟨h.val % 64 * 64 + w.val % 64, by omega⟩) := by
  unfold laidBack
  refine (shapeCast_apply _ _ _ (ix3 c h w) ?_).trans ?_
  · rw [Shape.rowMajor_val_three, Shape.rowMajor_val_four]
    show (c.val * 512 + h.val) * 512 + w.val = ((0 * 4 + c.val) * 512 + h.val) * 512 + w.val
    omega
  refine (shapeCast_apply _ _ _ (ix5 c ⟨h.val / 64, by omega⟩ ⟨h.val % 64, by omega⟩ ⟨w.val / 64, by omega⟩ ⟨w.val % 64, by omega⟩) ?_).trans ?_
  · rw [Shape.rowMajor_val_five, Shape.rowMajor_val_three]
    show (((c.val * 8 + h.val / 64) * 64 + h.val % 64) * 8 + w.val / 64) * 64 + w.val % 64 = (c.val * 512 + h.val) * 512 + w.val
    omega
  refine (transpose_apply _ _ _ _ (ix5 c ⟨h.val / 64, by omega⟩ ⟨w.val / 64, by omega⟩ ⟨h.val % 64, by omega⟩ ⟨w.val % 64, by omega⟩) ?_).trans ?_
  · intro b
    match b with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_three, Shape.rowMajor_val_five]
  show (c.val * 64 + (h.val / 64 * 8 + w.val / 64)) * 4096 + (h.val % 64 * 64 + w.val % 64)
    = (((c.val * 8 + h.val / 64) * 8 + w.val / 64) * 64 + h.val % 64) * 64 + w.val % 64
  omega

/-- THE STORED VALUE at channel `c` of the block, row `h`, column `w`: the selection row of the slot `8 (h / 64) + w / 64`
    against the raised patches at the element's place inside its patch. -/
theorem pay_apply (x0 : Vec Ideal S1x4x512x512 .f32) (x2 : Vec Ideal S4x64x1x1 .f32) (x1 : Vec Ideal S4x64x64 .f32)
    (c : Fin 4) (h w : Fin 512) :
    k0_pay1 (F := Ideal) x0 x2 x1 (ix4 (0 : Fin 1) c h w)
      = ∑ q : Fin 64, x1 (ix3 c ⟨h.val / 64 * 8 + w.val / 64, by omega⟩ q)
          * (x0 (ix4 (0 : Fin 1) c ⟨q.val / 8 * 64 + h.val % 64, by omega⟩ ⟨q.val % 8 * 64 + w.val % 64, by omega⟩)
              + x2 (ix4 c q (0 : Fin 1) (0 : Fin 1))) := by
  rw [pay_eq, laidBack_apply]
  exact mixed_apply x0 x2 x1 c ⟨h.val / 64 * 8 + w.val / 64, by omega⟩ ⟨h.val % 64, by omega⟩ ⟨w.val % 64, by omega⟩

end Cert.KernelIdeal.Payload

end
-- ==== Proof.KerTerm.lean ====
/-
  The two tables the host part of the kernel's program hands to the kernel, as terms.

  `oneHot[c, p, q]` is 1 where `q = (p + c) mod 64` and 0 elsewhere: it is computed on integers as the comparison of
  an iota along the last axis with the floored remainder by 64 of `p + c` (a sum of two iotas), converted to a
  float. `biasTab` is the bias argument `ap` with its two leading unit axes dropped.
-/
import proofs.«120854_j83949430768099_1_alg».proof.KernelIdeal

noncomputable section

namespace Cert.KernelIdeal.KerTerm

open Cert.KernelIdeal Cert.KernelIdeal.Facts₀ Idealize.ShloMosaic

variable {F : FTy → Type} [FloatOps F] [Facts]

/-- Entry `(c, p, 0)` is `p + c`. -/
def sumTab : IVec S64x64x1 32 :=
  addi
    (broadcastInDim S64x64x1 ![0, 1, 2] bcast_S1x64x1_S64x64x1_0_1_2 (broadcastInDim S1x64x1 ![1] bcast_S64_S1x64x1_1 (iotaInDim S64 32 0)))
    (broadcastInDim S64x64x1 ![0, 1, 2] bcast_S64x1x1_S64x64x1_0_1_2 (broadcastInDim S64x1x1 ![0] bcast_S64_S64x1x1_0 (iotaInDim S64 32 0)))

/-- The divisor as the remainder function uses it: 64, or 1 were it zero. -/
def divisor : IVec S_ 32 :=
  select (cmpi .eq (constantI S_ 32 64#32) (constantI S_ 32 0#32)) (constantI S_ 32 1#32) (constantI S_ 32 64#32)

/-- The truncated remainder of `p + c` by the divisor. -/
def truncRem : IVec S64x64x1 32 := Host.remsi sumTab (broadcastInDim S64x64x1 ![] bcast_S_S64x64x1 divisor)

/-- The floored remainder: the truncated one, moved by the divisor where it is nonzero and its sign differs from the divisor's. -/
def shiftTab : IVec S64x64x1 32 :=
  select
    (andi
      (cmpi .ne
        (cmpi .slt truncRem (broadcastInDim S64x64x1 ![] bcast_S_S64x64x1 (constantI S_ 32 0#32)))
        (broadcastInDim S64x64x1 ![] bcast_S_S64x64x1 (cmpi .slt divisor (constantI S_ 32 0#32))))
      (cmpi .ne truncRem (broadcastInDim S64x64x1 ![] bcast_S_S64x64x1 (constantI S_ 32 0#32))))
    (addi truncRem (broadcastInDim S64x64x1 ![] bcast_S_S64x64x1 divisor))
    truncRem

/-- The selection table: 1 where the last coordinate is the shifted slot, 0 elsewhere. -/
def oneHot : FVec F S64x64x64 .f32 :=
  uitofp .f32
    (cmpi .eq
      (broadcastInDim S64x64x64 ![0, 1, 2] bcast_S1x1x64_S64x64x64_0_1_2 (broadcastInDim S1x1x64 ![2] bcast_S64_S1x1x64_2 (iotaInDim S64 32 0)))
      (broadcastInDim S64x64x64 ![0, 1, 2] bcast_S64x64x1_S64x64x64_0_1_2 shiftTab))

/-- The bias argument without its leading unit axes. -/
def biasTab (ap : FVec F S1x1x64x64x1x1 .f32) : FVec F S64x64x1x1 .f32 :=
  shapeCast S64x64x1x1 ap shapeCasts_S1x1x64x64x1x1_S64x64x1x1

end Cert.KernelIdeal.KerTerm

end
-- ==== Proof.LibFloorMod.lean ====
/-
  The floored remainder by 64, as a host program spells it on 32-bit words: the truncated remainder `r` of the
  dividend, moved up by the divisor where `r` is nonzero and its sign differs from the divisor's. For a dividend
  `n < 128` read as a non-negative word, the result is the word of `n mod 64`: the truncated remainder is already
  `n mod 64`, it is never negative, and 64 is not negative either, so the correction never applies.
-/
import Idealize.ShloMosaic.PureOps.Ideal

namespace Cert.LibFloorMod

open Idealize.ShloMosaic

/-- The truncated remainder of a small non-negative word by 64 is the word of the natural remainder. -/
theorem remsi_64 : ∀ n : Fin 128, IntOp.remsi .host (BitVec.ofNat 32 n.val) 64#32 = BitVec.ofNat 32 (n.val % 64) := by decide

/-- The floored remainder by 64 of a word `n < 128`, with the sign corrections spelt out, is the word of `n mod 64`. -/
theorem floorMod_64 : ∀ n : Fin 128,
    Scalar.select
      (IntOp.andi
        (IntOp.cmpi .ne (IntOp.cmpi .slt (IntOp.remsi .host (BitVec.ofNat 32 n.val) 64#32) 0#32) (IntOp.cmpi .slt (64#32 : BitVec 32) 0#32))
        (IntOp.cmpi .ne (IntOp.remsi .host (BitVec.ofNat 32 n.val) 64#32) 0#32))
      (IntOp.addi (IntOp.remsi .host (BitVec.ofNat 32 n.val) 64#32) 64#32)
      (IntOp.remsi .host (BitVec.ofNat 32 n.val) 64#32)
    = BitVec.ofNat 32 (n.val % 64) := by decide

/-- The divisor a remainder function guards against zero: 64 is not zero, so it stays 64. -/
theorem guarded_divisor : Scalar.select (IntOp.cmpi .eq (64#32 : BitVec 32) 0#32) (1#32 : BitVec 32) 64#32 = 64#32 := by decide

/-- A word below 64 is not negative, so an index fix-up "add 64 where negative" leaves it as it is. -/
theorem wrap_neg_64 : ∀ q : Fin 64,
    Scalar.select (IntOp.cmpi .slt (BitVec.ofNat 32 q.val) 0#32) (IntOp.addi (BitVec.ofNat 32 q.val) 64#32) (BitVec.ofNat 32 q.val)
      = BitVec.ofNat 32 q.val := by decide

/-- A word below 64 lies in `[0, 63]`. -/
theorem in_range_64 : ∀ q : Fin 64,
    IntOp.andi (IntOp.cmpi .sge (BitVec.ofNat 32 q.val) 0#32) (IntOp.cmpi .sle (BitVec.ofNat 32 q.val) 63#32) = 1#1 := by decide

/-- Two words below 64 are equal exactly when the numbers are. -/
theorem cmp_eq_64 : ∀ q r : Fin 64,
    IntOp.cmpi .eq (BitVec.ofNat 32 q.val) (BitVec.ofNat 32 r.val) = if q.val = r.val then 1#1 else 0#1 := by decide

/-- Read signed and clamped into `[0, 63]`, a word below 64 is the number itself. -/
theorem clamp_64 : ∀ q : Fin 64, min (BitVec.ofNat 32 q.val).toInt.toNat (64 - 1) = q.val := by decide

end Cert.LibFloorMod
-- ==== Proof.OneHot.lean ====
/-
  The selection table read at an index: `oneHot[c, p, q]` is 1 when `q = (p + c) mod 64` and 0 otherwise; and a sum
  against such a row picks one term.
-/
import proofs.«120854_j83949430768099_1_alg».proof.Proof.Gen.KernelIdeal
import proofs.«120854_j83949430768099_1_alg».proof.Proof.KerTerm
import proofs.«120854_j83949430768099_1_alg».proof.Proof.LibFloorMod
import Idealize.ShloMosaic.Lib.Pipeline.Value
import Idealize.ShloMosaic.Lib.ValueIdx
import Idealize.ShloMosaic.Lib.ValueIdxRank6

noncomputable section

namespace Cert.KernelIdeal.OneHot

open Cert.KernelIdeal Cert.KernelIdeal.Gen Idealize.ShloMosaic Idealize.ShloMosaic.ValueIdx

/-- A scalar spread over the [64, 64, 1] table reads the scalar everywhere. -/
theorem splat_apply {α : Type} (x : S_.Idx → α) (j : S64x64x1.Idx) :
    broadcastInDim S64x64x1 ![] Gen.bcast_S_S64x64x1 x j = x ix0 :=
  broadcastInDim_apply _ _ x j ix0 (fun a => a.elim0)

/-- The slot coordinate `p` spread over the table. -/
theorem slots_apply (c p : Fin 64) :
    broadcastInDim S64x64x1 ![0, 1, 2] Gen.bcast_S1x64x1_S64x64x1_0_1_2
        (broadcastInDim S1x64x1 ![1] Gen.bcast_S64_S1x64x1_1 (iotaInDim S64 32 0)) (ix3 c p (0 : Fin 1))
      = BitVec.ofNat 32 p.val := by
  refine (broadcastInDim_apply _ _ _ _ (ix3 (0 : Fin 1) p (0 : Fin 1)) ?_).trans ?_
  · intro a
    match a with
    | ⟨0, _⟩ => rfl
    | ⟨1, _⟩ => rfl
    | ⟨2, _⟩ => rfl
  refine (broadcastInDim_apply _ _ _ _ (ix1 p) ?_).trans rfl
  intro a
  match a with
  | ⟨0, _⟩ => rfl

/-- The channel coordinate `c` spread over the table. -/
theorem channels_apply (c p : Fin 64) :
    broadcastInDim S64x64x1 ![0, 1, 2] Gen.bcast_S64x1x1_S64x64x1_0_1_2
        (broadcastInDim S64x1x1 ![0] Gen.bcast_S64_S64x1x1_0 (iotaInDim S64 32 0)) (ix3 c p (0 : Fin 1))
      = BitVec.ofNat 32 c.val := by
  refine (broadcastInDim_apply _ _ _ _ (ix3 c (0 : Fin 1) (0 : Fin 1)) ?_).trans ?_
  · intro a
    match a with
    | ⟨0, _⟩ => rfl
    | ⟨1, _⟩ => rfl
    | ⟨2, _⟩ => rfl
  refine (broadcastInDim_apply _ _ _ _ (ix1 c) ?_).trans rfl
  intro a
  match a with
  | ⟨0, _⟩ => rfl

theorem sumTab_apply (c p : Fin 64) : KerTerm.sumTab (ix3 c p (0 : Fin 1)) = BitVec.ofNat 32 (p.val + c.val) := by
  unfold KerTerm.sumTab
  show IntOp.addi _ _ = _
  rw [slots_apply, channels_apply]
  exact (BitVec.ofNat_add _ _).symm

theorem divisor_eq : KerTerm.divisor ix0 = 64#32 := Cert.LibFloorMod.guarded_divisor

/-- The table of shifted slots: entry `(c, p)` is `(p + c) mod 64`. -/
theorem shiftTab_apply (c p : Fin 64) : KerTerm.shiftTab (ix3 c p (0 : Fin 1)) = BitVec.ofNat 32 ((p.val + c.val) % 64) := by
  simp only [KerTerm.shiftTab, KerTerm.truncRem, select, andi, cmpi, addi, Host.remsi, splat_apply, constantI, sumTab_apply, divisor_eq]
  exact Cert.LibFloorMod.floorMod_64 ⟨p.val + c.val, by omega⟩

/-- THE SELECTION TABLE at `(c, p, q)`: one where `q` is the shifted slot of `p`, zero elsewhere. -/
theorem oneHot_apply (c p q : Fin 64) :
    KerTerm.oneHot (F := Ideal) (ix3 c p q) = if q.val = (p.val + c.val) % 64 then (1 : EReal) else 0 := by
  have hA : broadcastInDim S64x64x64 ![0, 1, 2] Gen.bcast_S1x1x64_S64x64x64_0_1_2
      (broadcastInDim S1x1x64 ![2] Gen.bcast_S64_S1x1x64_2 (iotaInDim S64 32 0)) (ix3 c p q) = BitVec.ofNat 32 q.val := by
    refine (broadcastInDim_apply _ _ _ _ (ix3 (0 : Fin 1) (0 : Fin 1) q) ?_).trans ?_
    · intro a
      match a with
      | ⟨0, _⟩ => rfl
      | ⟨1, _⟩ => rfl
      | ⟨2, _⟩ => rfl
    refine (broadcastInDim_apply _ _ _ _ (ix1 q) ?_).trans rfl
    intro a
    match a with
    | ⟨0, _⟩ => rfl
  have hB : broadcastInDim S64x64x64 ![0, 1, 2] Gen.bcast_S64x64x1_S64x64x64_0_1_2 KerTerm.shiftTab (ix3 c p q)
      = BitVec.ofNat 32 ((p.val + c.val) % 64) := by
    refine (broadcastInDim_apply _ _ _ _ (ix3 c p (0 : Fin 1)) ?_).trans (shiftTab_apply c p)
    intro a
    match a with
    | ⟨0, _⟩ => rfl
    | ⟨1, _⟩ => rfl
    | ⟨2, _⟩ => rfl
  unfold KerTerm.oneHot
  show FloatOps.uitofp (F := Ideal) .f32 (IntOp.cmpi .eq _ _) = _
  rw [hA, hB, Cert.LibFloorMod.cmp_eq_64 q ⟨(p.val + c.val) % 64, Nat.mod_lt _ (by norm_num)⟩]
  show (((if q.val = (p.val + c.val) % 64 then (1#1 : BitVec 1) else 0#1).toNat : ℝ) : EReal) = _
  split_ifs <;> simp

/-- A sum against a row that is one at `q₀` and zero elsewhere is the term at `q₀`. -/
theorem sum_select (f : Fin 64 → EReal) (q₀ : Fin 64) :
    ∑ q : Fin 64, (if q.val = q₀.val then (1 : EReal) else 0) * f q = f q₀ := by
  rw [Finset.sum_eq_single q₀]
  · rw [if_pos rfl, one_mul]
  · intro q _ hq
    rw [if_neg (fun h => hq (Fin.ext h)), zero_mul]
  · intro h
    exact absurd (Finset.mem_univ q₀) h

/-- The bias table at `(c, q, 0, 0)` is the bias argument at `(0, 0, c, q, 0, 0)`. -/
theorem biasTab_apply (ap : FVec Ideal S1x1x64x64x1x1 .f32) (c q : Fin 64) :
    KerTerm.biasTab (F := Ideal) ap (ix4 c q (0 : Fin 1) (0 : Fin 1))
      = ap (ix6 (0 : Fin 1) (0 : Fin 1) c q (0 : Fin 1) (0 : Fin 1)) := by
  unfold KerTerm.biasTab
  refine shapeCast_apply _ _ _ _ ?_
  rw [Shape.rowMajor_val_six, Shape.rowMajor_val_four]
  show ((((0 * 1 + 0) * 64 + c.val) * 64 + q.val) * 1 + 0) * 1 + 0 = ((c.val * 64 + q.val) * 1 + 0) * 1 + 0
  omega

end Cert.KernelIdeal.OneHot

end
-- ==== Proof.HostTables.lean ====
/-
  What the kernel finds in its second and third operand arrays: the host operations before the launch leave the
  selection table `oneHot` in one and the reshaped bias `biasTab ap` in the other.
-/
import proofs.«120854_j83949430768099_1_alg».proof.Proof.Gen.KernelIdeal.Frame
import proofs.«120854_j83949430768099_1_alg».proof.Proof.KerTerm
import Idealize.ShloMosaic.Lib.StableHlo.Run

noncomputable section

namespace Cert.KernelIdeal.HostTables

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 1600000 in
/-- The selection table as the kernel finds it. -/
theorem V_oneHot (c : Dev nD) : (V m c main_v13 : S64x64x64.Idx → F .f32) = KerTerm.oneHot (F := F) := by
  dsimp only [Gen.V]
  simp only [Gen.hostOps0, Gen.hostOps0_1, Gen.hostOps0_2, List.flatten_cons, List.flatten_nil, List.append_nil, List.cons_append,
    List.nil_append]
  after_results_simp
  rfl

set_option maxRecDepth 16384 in
set_option maxHeartbeats 1600000 in
/-- The bias table as the kernel finds it. -/
theorem V_biasTab (c : Dev nD) :
    (V m c main_v14 : S64x64x1x1.Idx → F .f32) = KerTerm.biasTab (F := F) (m ((c : Thread nD τ).loc main_arg1)) := by
  dsimp only [Gen.V]
  simp only [Gen.hostOps0, Gen.hostOps0_1, Gen.hostOps0_2, List.flatten_cons, List.flatten_nil, List.append_nil, List.cons_append,
    List.nil_append]
  after_results_simp
  rfl

end Cert.KernelIdeal.HostTables

end
-- ==== Proof.Spec.lean ====
/-
  The result of both programs as one function of the two argument arrays.

  The argument `x` is an [8, 64, 512, 512] array: 8 batches, 64 channels, and a 512 × 512 image cut into
  an 8 × 8 grid of 64 × 64 patches; patch `(i, j)` has number `8 i + j`. The argument `ap` holds, for
  every channel `c` and patch number `p`, one number `ap[0, 0, c, p, 0, 0]`. Every element of patch
  `p` of channel `c` is first raised by `ap[c, p]`, and the patches of channel `c` are then rotated by
  `c` slots: the result's patch `p` is the raised patch `(p + c) mod 64`. So the result at row
  `h = 64 i + a`, column `w = 64 j + d` of channel `c` is `x` at row `64 i' + a`, column `64 j' + d`
  plus `ap[c, q]`, where `q = (8 i + j + c) mod 64 = 8 i' + j'`.
-/
import Idealize.ShloMosaic.PureOps.Ideal
import Idealize.ShloMosaic.Lib.ValueIdx
import Idealize.ShloMosaic.Lib.ValueIdxRank6

noncomputable section

namespace Cert.Spec

open Idealize.ShloMosaic Idealize.ShloMosaic.ValueIdx

/-- The number of the patch that lands in slot `8 i + j` of channel `c`. -/
def src (c i j : ℕ) : ℕ := (8 * i + j + c) % 64

theorem src_lt (c i j : ℕ) : src c i j < 64 := Nat.mod_lt _ (by norm_num)

/-- The row (or column) inside the image of offset `r mod 64` inside patch row (column) `k`. -/
theorem patch_coord_lt (k r : ℕ) (hk : k < 8) : k * 64 + r % 64 < 512 := by omega

/-- The result at batch `b`, channel `c`, row `h`, column `w`. -/
def Gat (x : (⟨4, ![8, 64, 512, 512]⟩ : Shape).Idx → EReal) (ap : (⟨6, ![1, 1, 64, 64, 1, 1]⟩ : Shape).Idx → EReal)
    (b : Fin 8) (c : Fin 64) (h w : Fin 512) : EReal :=
  x (ix4 b c
      ⟨src c.val (h.val / 64) (w.val / 64) / 8 * 64 + h.val % 64,
        patch_coord_lt _ _ (by have := src_lt c.val (h.val / 64) (w.val / 64); omega)⟩
      ⟨src c.val (h.val / 64) (w.val / 64) % 8 * 64 + w.val % 64,
        patch_coord_lt _ _ (by omega)⟩)
    + ap (ix6 (0 : Fin 1) (0 : Fin 1) c ⟨src c.val (h.val / 64) (w.val / 64), src_lt _ _ _⟩ (0 : Fin 1) (0 : Fin 1))

/-- The whole result array. -/
def G (x : (⟨4, ![8, 64, 512, 512]⟩ : Shape).Idx → EReal) (ap : (⟨6, ![1, 1, 64, 64, 1, 1]⟩ : Shape).Idx → EReal) :
    (⟨4, ![8, 64, 512, 512]⟩ : Shape).Idx → EReal :=
  fun i => Gat x ap (i 0) (i 1) (i 2) (i 3)

theorem G_ix4 (x : (⟨4, ![8, 64, 512, 512]⟩ : Shape).Idx → EReal) (ap : (⟨6, ![1, 1, 64, 64, 1, 1]⟩ : Shape).Idx → EReal)
    (b : Fin 8) (c : Fin 64) (h w : Fin 512) : G x ap (ix4 b c h w) = Gat x ap b c h w := rfl

end Cert.Spec

end
-- ==== Proof.KernelValue.lean ====
/-
  From blocks to the whole array: the kernel's result array after the run is `Spec.G` of the two arguments.

  Grid point `t` handles batch `b` and channels `4 cb … 4 cb + 3`: it is handed that block of the image, the rows
  `4 cb …` of the selection table and of the bias table, and writes back the same block of the result. With the
  selection rows one at the shifted slot and zero elsewhere, the stored sum is the one raised patch the result
  asks for; the blocks tile the result array.
-/
import proofs.«120854_j83949430768099_1_alg».proof.Proof.Gen.KernelIdeal.Value
import proofs.«120854_j83949430768099_1_alg».proof.Proof.Payload
import proofs.«120854_j83949430768099_1_alg».proof.Proof.OneHot
import proofs.«120854_j83949430768099_1_alg».proof.Proof.HostTables
import proofs.«120854_j83949430768099_1_alg».proof.Proof.Spec

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- ONE GRID POINT'S ARITHMETIC, over plain vectors: if the three loaded blocks are the blocks of the image `X`, of the
    selection table and of the bias table of `AP` at batch `b` and channel group `cb`, the stored value at channel
    `cl` of the block, row `h`, column `w` is the result function at channel `4 cb + cl`. -/
theorem point_value (X : (⟨4, ![8, 64, 512, 512]⟩ : Shape).Idx → EReal) (AP : (⟨6, ![1, 1, 64, 64, 1, 1]⟩ : Shape).Idx → EReal)
    (x0 : Vec Ideal S1x4x512x512 .f32) (x1 : Vec Ideal S4x64x64 .f32) (x2 : Vec Ideal S4x64x1x1 .f32)
    (b : Fin 8) (cb : Fin 16)
    (h0 : ∀ (cl : Fin 4) (h w : Fin 512), x0 (ix4 (0 : Fin 1) cl h w) = X (ix4 b ⟨4 * cb.val + cl.val, by omega⟩ h w))
    (h1 : ∀ (cl : Fin 4) (p q : Fin 64), x1 (ix3 cl p q) = KerTerm.oneHot (F := Ideal) (ix3 ⟨4 * cb.val + cl.val, by omega⟩ p q))
    (h2 : ∀ (cl : Fin 4) (q : Fin 64), x2 (ix4 cl q (0 : Fin 1) (0 : Fin 1))
      = KerTerm.biasTab (F := Ideal) AP (ix4 ⟨4 * cb.val + cl.val, by omega⟩ q (0 : Fin 1) (0 : Fin 1)))
    (cl : Fin 4) (h w : Fin 512) :
    k0_pay1 (F := Ideal) x0 x2 x1 (ix4 (0 : Fin 1) cl h w) = Cert.Spec.Gat X AP b ⟨4 * cb.val + cl.val, by omega⟩ h w := by
  rw [Payload.pay_apply]
  simp only [h0, h1, h2, OneHot.oneHot_apply, OneHot.biasTab_apply]
  have e : (h.val / 64 * 8 + w.val / 64 + (4 * cb.val + cl.val)) % 64
      = (⟨Cert.Spec.src (4 * cb.val + cl.val) (h.val / 64) (w.val / 64), Cert.Spec.src_lt _ _ _⟩ : Fin 64).val := by
    show _ = Cert.Spec.src (4 * cb.val + cl.val) (h.val / 64) (w.val / 64)
    unfold Cert.Spec.src
    omega
  rw [e]
  exact OneHot.sum_select _ _

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the grid: every window's block index is read off the result window's (batch
    `b` on axis 0, channel group `cb` on axis 1), and those stay in range. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 3) = win0_3.index t (1 : Fin 4) ∧ win0_1.index t (1 : Fin 3) = 0 ∧ win0_1.index t (2 : Fin 3) = 0
    ∧ win0_2.index t (0 : Fin 4) = win0_3.index t (1 : Fin 4) ∧ win0_2.index t (1 : Fin 4) = 0
    ∧ win0_2.index t (2 : Fin 4) = 0 ∧ win0_2.index t (3 : Fin 4) = 0
    ∧ win0_3.index t (0 : Fin 4) ≤ 7 ∧ win0_3.index t (1 : Fin 4) ≤ 15
    ∧ win0_3.index t (2 : Fin 4) = 0 ∧ win0_3.index t (3 : Fin 4) = 0 :=
  (by decide +kernel : ∀ t : Fin grid0.N, _)

/-- Every (batch, channel group) is some point's. -/
theorem idx_onto : ∀ (q0 : Fin 8) (q1 : Fin 16), ∃ t : Fin cfg0.N, win0_3.index t = ![q0.val, q1.val, 0, 0] :=
  (by decide +kernel : ∀ (q0 : Fin 8) (q1 : Fin 16), ∃ t : Fin grid0.N, win0_3.index t = ![q0.val, q1.val, 0, 0])

/-- The image block a point is handed, element by element. -/
theorem iblk0_apply (c : Dev nD) (t : Fin cfg0.N) (b : Fin 8) (cb : Fin 16)
    (hb : win0_3.index t (0 : Fin 4) = b.val) (hcb : win0_3.index t (1 : Fin 4) = cb.val) (cl : Fin 4) (h w : Fin 512) :
    iblk m c 0 t (ix4 (0 : Fin 1) cl h w)
      = (V m c main_arg0 : S8x64x512x512.Idx → EReal) (ix4 b ⟨4 * cb.val + cl.val, by omega⟩ h w) := by
  obtain ⟨e0, e1, e2, e3, -⟩ := idx_facts t
  show V m c main_arg0 (((cfg0.win 0).blk t).view.emb (ix4 (0 : Fin 1) cl h w)) = _
  refine congrArg _ (funext fun a => Fin.ext ?_)
  match a with
  | ⟨0, _⟩ => show win0_0.index t (0 : Fin 4) * 1 + 1 * 0 = b.val; omega
  | ⟨1, _⟩ => show win0_0.index t (1 : Fin 4) * 4 + 1 * cl.val = 4 * cb.val + cl.val; omega
  | ⟨2, _⟩ => show win0_0.index t (2 : Fin 4) * 512 + 1 * h.val = h.val; omega
  | ⟨3, _⟩ => show win0_0.index t (3 : Fin 4) * 512 + 1 * w.val = w.val; omega

/-- The selection rows a point is handed. -/
theorem iblk1_apply (c : Dev nD) (t : Fin cfg0.N) (cb : Fin 16)
    (hcb : win0_3.index t (1 : Fin 4) = cb.val) (cl : Fin 4) (p q : Fin 64) :
    iblk m c 1 t (ix3 cl p q) = (V m c main_v13 : S64x64x64.Idx → EReal) (ix3 ⟨4 * cb.val + cl.val, by omega⟩ p q) := by
  obtain ⟨-, -, -, -, e0, e1, e2, -⟩ := idx_facts t
  show V m c main_v13 (((cfg0.win 1).blk t).view.emb (ix3 cl p q)) = _
  refine congrArg _ (funext fun a => Fin.ext ?_)
  match a with
  | ⟨0, _⟩ => show win0_1.index t (0 : Fin 3) * 4 + 1 * cl.val = 4 * cb.val + cl.val; omega
  | ⟨1, _⟩ => show win0_1.index t (1 : Fin 3) * 64 + 1 * p.val = p.val; omega
  | ⟨2, _⟩ => show win0_1.index t (2 : Fin 3) * 64 + 1 * q.val = q.val; omega

/-- The bias rows a point is handed. -/
theorem iblk2_apply (c : Dev nD) (t : Fin cfg0.N) (cb : Fin 16)
    (hcb : win0_3.index t (1 : Fin 4) = cb.val) (cl : Fin 4) (q : Fin 64) :
    iblk m c 2 t (ix4 cl q (0 : Fin 1) (0 : Fin 1))
      = (V m c main_v14 : S64x64x1x1.Idx → EReal) (ix4 ⟨4 * cb.val + cl.val, by omega⟩ q (0 : Fin 1) (0 : Fin 1)) := by
  obtain ⟨-, -, -, -, -, -, -, e0, e1, e2, e3, -⟩ := idx_facts t
  show V m c main_v14 (((cfg0.win 2).blk t).view.emb (ix4 cl q (0 : Fin 1) (0 : Fin 1))) = _
  refine congrArg _ (funext fun a => Fin.ext ?_)
  match a with
  | ⟨0, _⟩ => show win0_2.index t (0 : Fin 4) * 4 + 1 * cl.val = 4 * cb.val + cl.val; omega
  | ⟨1, _⟩ => show win0_2.index t (1 : Fin 4) * 64 + 1 * q.val = q.val; omega
  | ⟨2, _⟩ => show win0_2.index t (2 : Fin 4) * 1 + 1 * 0 = 0; omega
  | ⟨3, _⟩ => show win0_2.index t (3 : Fin 4) * 1 + 1 * 0 = 0; omega

/-- The result function of the arguments as the kernel finds them. -/
abbrev Gm (c : Dev nD) : S8x64x512x512.Idx → EReal :=
  Cert.Spec.G (m ((c : Thread nD τ).loc main_arg0)) (m ((c : Thread nD τ).loc main_arg1))

/-- WHAT POINT `t` WRITES BACK is block `t` of the result function. -/
theorem flushed_eq (c : Dev nD) (t : Fin cfg0.N) :
    (dats m 0 c).flushed 3 t = ((cfg0.win 3).blk t).view.read (Elt Ideal) (Gm m c) := by
  rw [Value.flushed3]
  unfold out0_3
  rw [View.canon_unit_zero hz4]
  simp only [View.ld_unit_zero (S := S1x4x512x512) hz4, View.ld_unit_zero (S := S4x64x1x1) hz4, View.ld_unit_zero (S := S4x64x64) hz3]
  obtain ⟨-, -, -, -, -, -, -, -, -, -, -, e0, e1, e2, e3⟩ := idx_facts t
  funext j
  obtain ⟨z, cl, h, w, rfl⟩ : ∃ (z : Fin 1) (cl : Fin 4) (h w : Fin 512), j = ix4 z cl h w := ⟨j 0, j 1, j 2, j 3, eq_ix4 j⟩
  obtain rfl : z = 0 := Subsingleton.elim _ _
  show k0_pay1 (F := Ideal) (iblk m c 0 t) (iblk m c 2 t) (iblk m c 1 t) (ix4 (0 : Fin 1) cl h w)
    = Gm m c (((cfg0.win 3).blk t).view.emb (ix4 (0 : Fin 1) cl h w))
  have hemb : ((cfg0.win 3).blk t).view.emb (ix4 (0 : Fin 1) cl h w)
      = ix4 (⟨win0_3.index t (0 : Fin 4), by omega⟩ : Fin 8) (⟨4 * win0_3.index t (1 : Fin 4) + cl.val, by omega⟩ : Fin 64) h w := by
    funext a; apply Fin.ext
    match a with
    | ⟨0, _⟩ => show win0_3.index t (0 : Fin 4) * 1 + 1 * 0 = win0_3.index t (0 : Fin 4); omega
    | ⟨1, _⟩ => show win0_3.index t (1 : Fin 4) * 4 + 1 * cl.val = 4 * win0_3.index t (1 : Fin 4) + cl.val; omega
    | ⟨2, _⟩ => show win0_3.index t (2 : Fin 4) * 512 + 1 * h.val = h.val; omega
    | ⟨3, _⟩ => show win0_3.index t (3 : Fin 4) * 512 + 1 * w.val = w.val; omega
  rw [hemb]
  show _ = Cert.Spec.Gat _ _ _ _ h w
  refine point_value (m ((c : Thread nD τ).loc main_arg0)) (m ((c : Thread nD τ).loc main_arg1))
    (iblk m c 0 t) (iblk m c 1 t) (iblk m c 2 t) ⟨win0_3.index t (0 : Fin 4), by omega⟩ ⟨win0_3.index t (1 : Fin 4), by omega⟩
    ?_ ?_ ?_ cl h w
  · intro cl h w
    rw [iblk0_apply m c t ⟨win0_3.index t (0 : Fin 4), by omega⟩ ⟨win0_3.index t (1 : Fin 4), by omega⟩ rfl rfl, V_main_arg0]
  · intro cl p q
    rw [iblk1_apply m c t ⟨win0_3.index t (1 : Fin 4), by omega⟩ rfl, HostTables.V_oneHot]
  · intro cl q
    rw [iblk2_apply m c t ⟨win0_3.index t (1 : Fin 4), by omega⟩ rfl, HostTables.V_biasTab]

/-- An index of the array is in point `t`'s block iff each coordinate is in the block's range on its axis. -/
theorem mem_blk (t : Fin cfg0.N) (i : S8x64x512x512.Idx) :
    i ∈ ((cfg0.win 3).blk t).view.set ↔ ∀ a : Fin 4, win0_3.index t a * S1x4x512x512.size a ≤ (i a).val
      ∧ (i a).val < win0_3.index t a * S1x4x512x512.size a + S1x4x512x512.size a := by
  show i ∈ ((View.whole main_v15).slice (win0_3.rect t)).set ↔ _
  rw [View.set_slice_whole, Rect.mem_set_unit]
  exact Iff.rfl

/-- The blocks tile the result array: index `(b, ch, h, w)` is in the block of batch `b`, channel group `ch / 4`. -/
theorem cover (i : S8x64x512x512.Idx) : ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 512 := (i 2).isLt
  have hi3 : (i 3).val < 512 := (i 3).isLt
  obtain ⟨t, ht⟩ := idx_onto ⟨(i 0).val, hi0⟩ ⟨(i 1).val / 4, by omega⟩
  have q0 : win0_3.index t (0 : Fin 4) = (i 0).val := congrFun ht 0
  have q1 : win0_3.index t (1 : Fin 4) = (i 1).val / 4 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 4 ≤ (i 1).val ∧ (i 1).val < win0_3.index t (1 : Fin 4) * 4 + 4; omega
  | ⟨2, _⟩ => show win0_3.index t (2 : Fin 4) * 512 ≤ (i 2).val ∧ (i 2).val < win0_3.index t (2 : Fin 4) * 512 + 512; omega
  | ⟨3, _⟩ => show win0_3.index t (3 : Fin 4) * 512 ≤ (i 3).val ∧ (i 3).val < win0_3.index t (3 : Fin 4) * 512 + 512; omega

/-- THE RESULT ARRAY after the run is the result function of the arguments. -/
theorem final (c : Dev nD) : (dats m 0 c).arrAt 3 cfg0.N = Gm m c :=
  (dats m 0 c).arrAt_eq_of_cover 3 (Gm m c) (fun t _ => flushed_eq m c t) cover

/-- The kernel's run, read: the result array at `Spec.G` of the arguments, the arguments unchanged. -/
theorem run : θ_run defs (onTc (τ := τ) (main (F := Ideal))) ⟨m, fun _ => 0, ρ⟩ fun r => ∀ c : Dev nD,
      r.2.mem ((c : Thread nD τ).loc main_v15) = Gm m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.RefTerm.lean ====
/-
  The reference's operations composed into one term of its two arguments.

  The image is cut into patches (a reshape to [8, 64, 8, 64, 8, 64], two transposes and a reshape bring the
  patch number to axis 2: `unfolded`), every patch of channel `c` is raised by the bias `ap[c, p]` (`biasAll`),
  the table `shift[c, p] = (c + p) mod 64` is computed on integers (`shiftTab`: a sum of two iotas and the
  floored remainder by 64, spelt with its sign corrections), patch `p` of channel `c` is replaced by patch
  `shift[c, p]` (`taken`: a gather along axis 2, guarded by an in-range test of the indices), and the patches
  are laid back into the image (`folded`).
-/
import proofs.«120854_j83949430768099_1_alg».proof.ReferenceIdeal

noncomputable section

namespace Cert.ReferenceIdeal.RefTerm

open Cert.ReferenceIdeal Cert.ReferenceIdeal.Facts₀ Idealize.ShloMosaic

variable {F : FTy → Type} [FloatOps F] [Facts]

/-- The image as patches: entry `(b, c, p, a, d)` is the image's at row `64 (p / 8) + a`, column `64 (p % 8) + d`. -/
def unfolded (x : FVec F S8x64x512x512 .f32) : FVec F S8x64x64x64x64 .f32 :=
  transpose S8x64x64x64x64 [0, 1, 4, 2, 3]
    (shapeCast S8x64x64x64x64
      (transpose S8x64x64x64x8x8 [0, 1, 3, 5, 2, 4]
        (shapeCast S8x64x8x64x8x64 x shapeCasts_S8x64x512x512_S8x64x8x64x8x64)
        transposes_S8x64x8x64x8x64_S8x64x64x64x8x8_0_1_3_5_2_4)
      shapeCasts_S8x64x64x64x8x8_S8x64x64x64x64)
    transposes_S8x64x64x64x64_S8x64x64x64x64_0_1_4_2_3

/-- The bias spread over batches and over the elements of a patch: entry `(b, c, p, a, d)` is `ap[0, 0, c, p, 0, 0]`. -/
def biasAll (ap : FVec F S1x1x64x64x1x1 .f32) : FVec F S8x64x64x64x64 .f32 :=
  broadcastInDim S8x64x64x64x64 ![0, 1, 2, 3, 4] bcast_S1x64x64x1x1_S8x64x64x64x64_0_1_2_3_4
    (broadcastInDim S1x64x64x1x1 ![1, 2, 3, 4] bcast_S64x64x1x1_S1x64x64x1x1_1_2_3_4
      (shapeCast S64x64x1x1 ap shapeCasts_S1x1x64x64x1x1_S64x64x1x1))

/-- Entry `(c, p)` is `c + p`. -/
def sumTab : IVec S64x64 32 :=
  addi
    (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))

/-- The divisor as the remainder function uses it: 64, or 1 were it zero. -/
def divisor : IVec S_ 32 :=
  select (cmpi .eq (constantI S_ 32 64#32) (constantI S_ 32 0#32)) (constantI S_ 32 1#32) (constantI S_ 32 64#32)

/-- The truncated remainder of `c + p` by the divisor. -/
def truncRem : IVec S64x64 32 := Host.remsi sumTab (broadcastInDim S64x64 ![] bcast_S_S64x64 divisor)

/-- The floored remainder: the truncated one, moved by the divisor where it is nonzero and its sign differs from the divisor's. -/
def shiftTab : IVec S64x64 32 :=
  select
    (andi
      (cmpi .ne
        (cmpi .slt truncRem (broadcastInDim S64x64 ![] bcast_S_S64x64 (constantI S_ 32 0#32)))
        (broadcastInDim S64x64 ![] bcast_S_S64x64 (cmpi .slt divisor (constantI S_ 32 0#32))))
      (cmpi .ne truncRem (broadcastInDim S64x64 ![] bcast_S_S64x64 (constantI S_ 32 0#32))))
    (addi truncRem (broadcastInDim S64x64 ![] bcast_S_S64x64 divisor))
    truncRem

/-- The table as the gather's start indices: negative entries moved up by 64, laid out as [64, 64, 1]. -/
def startIdx : IVec S64x64x1 32 :=
  shapeCast S64x64x1
    (select
      (cmpi .slt (broadcastInDim S1x64x64x1x1 ![1, 2] bcast_S64x64_S1x64x64x1x1_1_2 shiftTab)
        (broadcastInDim S1x64x64x1x1 ![] bcast_S_S1x64x64x1x1 (constantI S_ 32 0#32)))
      (addi (broadcastInDim S1x64x64x1x1 ![1, 2] bcast_S64x64_S1x64x64x1x1_1_2 shiftTab)
        (broadcastInDim S1x64x64x1x1 ![] bcast_S_S1x64x64x1x1 (constantI S_ 32 64#32)))
      (broadcastInDim S1x64x64x1x1 ![1, 2] bcast_S64x64_S1x64x64x1x1_1_2 shiftTab))
    shapeCasts_S1x64x64x1x1_S64x64x1

/-- Whether a start index lies in `[0, 63]`, per channel and slot. -/
def inRange : IVec S64x64 1 :=
  Host.reduce IntOp.andi
    (andi
      (cmpi .sge startIdx (broadcastInDim S64x64x1 ![] bcast_S_S64x64x1 (constantI S_ 32 0#32)))
      (cmpi .sle startIdx
        (broadcastInDim S64x64x1 ![0, 1, 2] bcast_S1x1x1_S64x64x1_0_1_2
          (broadcastInDim S1x1x1 ![2] bcast_S1_S1x1x1_2 (constantI S1 32 63#32)))))
    (constantI S_ 1 1#1) reducesTo_S64x64x1_S64x64_d2 h_S_

/-- Patch `p` of channel `c` replaced by patch `shift[c, p]` (a filler where the index were out of range). -/
def taken (u : FVec F S8x64x64x64x64 .f32) : FVec F S8x64x64x64x64 .f32 :=
  select
    (broadcastInDim S8x64x64x64x64 ![1, 2] bcast_S64x64_S8x64x64x64x64_1_2 inRange)
    (Host.gather gather_S8x64x64x64x64_S64x64x1_S8x64x64x64x64_034_2_1_0_2_2_8116464 u startIdx)
    (broadcastInDim S8x64x64x64x64 ![] bcast_S_S8x64x64x64x64 (constant S_ .f32 0x7FC00000#32))

/-- The patches laid back into the image. -/
def folded (y : FVec F S8x64x64x64x64 .f32) : FVec F S8x64x512x512 .f32 :=
  shapeCast S8x64x512x512
    (transpose S8x64x8x64x8x64 [0, 1, 4, 2, 5, 3]
      (shapeCast S8x64x64x64x8x8
        (transpose S8x64x64x64x64 [0, 1, 3, 4, 2] y transposes_S8x64x64x64x64_S8x64x64x64x64_0_1_3_4_2)
        shapeCasts_S8x64x64x64x64_S8x64x64x64x8x8)
      transposes_S8x64x64x64x8x8_S8x64x8x64x8x64_0_1_4_2_5_3)
    shapeCasts_S8x64x8x64x8x64_S8x64x512x512

/-- The reference's result as one term of its arguments. -/
def refOut (x : FVec F S8x64x512x512 .f32) (ap : FVec F S1x1x64x64x1x1 .f32) : FVec F S8x64x512x512 .f32 :=
  folded (taken (addf (unfolded x) (biasAll ap)))

end Cert.ReferenceIdeal.RefTerm

end
-- ==== Proof.RefRun.lean ====
/-
  The reference program's run. @main of the reference is a straight line of StableHLO operations once its two
  calls are read as their callees' bodies: @remainder (whose own body calls @_where) over the call's buffer
  record `main_call0` (and `main_call0.call0` for @_where), and @take_along_axis over `main_call1`. `ops` is
  that line, 65 operations in order; `main_eq` says @main is their sequence; `run_main` says every weakly fair
  execution from a memory with zero counters terminates with each buffer at the fold of the operations over the
  launch contents. `out_eq` reads that fold at the result buffer: it is `RefTerm.refOut` of the two arguments'
  contents; `arg0_eq` and `arg1_eq` read it at the arguments, which no operation writes; `run` puts the three
  together over the launch memory.
-/
import proofs.«120854_j83949430768099_1_alg».proof.Proof.Gen.ReferenceIdeal
import Idealize.ShloMosaic.Lib.StableHlo.Run
import proofs.«120854_j83949430768099_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 65 operations in order, the calls unfolded: sixteen of @main's own (the regrouping of the input into
    blocks, the bias added, the table `row + column` and the constant 64), @remainder's twenty-one over
    `main_call0` (four, then @_where's one select into `main_call0.call0`, then sixteen), one broadcast of the
    remainder table, @take_along_axis's twenty-three over `main_call1`, and @main's last four (the blocks put
    back). An argument of a callee is the caller's buffer at the callee's type; a value of a callee's body is the
    record's field. -/
abbrev ops : List (HloOp τ sig (Elt F)) :=
  [
    -- the input regrouped into its 8×8 blocks of 64×64 and the block axes brought to the back, then the per-(head, block) bias broadcast and added
    StableHlo.reshape main_arg0 main_v0 rfl shapeCasts_S8x64x512x512_S8x64x8x64x8x64,
    StableHlo.unary main_v0 main_v1 ((transpose S8x64x64x64x8x8 [0, 1, 3, 5, 2, 4] · transposes_S8x64x8x64x8x64_S8x64x64x64x8x8_0_1_3_5_2_4) : (⟨S8x64x8x64x8x64, .f32⟩ : BufTy).Contents (Elt F) → (⟨S8x64x64x64x8x8, .f32⟩ : BufTy).Contents (Elt F)),
    StableHlo.reshape main_v1 main_v2 rfl shapeCasts_S8x64x64x64x8x8_S8x64x64x64x64,
    StableHlo.unary main_v2 main_v3 ((transpose S8x64x64x64x64 [0, 1, 4, 2, 3] · transposes_S8x64x64x64x64_S8x64x64x64x64_0_1_4_2_3) : (⟨S8x64x64x64x64, .f32⟩ : BufTy).Contents (Elt F) → (⟨S8x64x64x64x64, .f32⟩ : BufTy).Contents (Elt F)),
    StableHlo.reshape main_arg1 main_v4 rfl shapeCasts_S1x1x64x64x1x1_S64x64x1x1,
    StableHlo.unary main_v4 main_v5 (broadcastInDim S1x64x64x1x1 ![1, 2, 3, 4] bcast_S64x64x1x1_S1x64x64x1x1_1_2_3_4 : (⟨S64x64x1x1, .f32⟩ : BufTy).Contents (Elt F) → (⟨S1x64x64x1x1, .f32⟩ : BufTy).Contents (Elt F)),
    StableHlo.unary main_v5 main_v6 (broadcastInDim S8x64x64x64x64 ![0, 1, 2, 3, 4] bcast_S1x64x64x1x1_S8x64x64x64x64_0_1_2_3_4 : (⟨S1x64x64x1x1, .f32⟩ : BufTy).Contents (Elt F) → (⟨S8x64x64x64x64, .f32⟩ : BufTy).Contents (Elt F)),
    StableHlo.binary main_v3 main_v6 main_v7 (addf : (⟨S8x64x64x64x64, .f32⟩ : BufTy).Contents (Elt F) → (⟨S8x64x64x64x64, .f32⟩ : BufTy).Contents (Elt F) → (⟨S8x64x64x64x64, .f32⟩ : BufTy).Contents (Elt F)),
    -- the 64×64 table of block indices, row + column
    StableHlo.nullary main_v8 (iotaInDim S64 32 0),
    StableHlo.unary main_v8 main_v9 (broadcastInDim S64x1 ![0] bcast_S64_S64x1_0 : (⟨S64, .i32⟩ : BufTy).Contents (Elt F) → (⟨S64x1, .i32⟩ : BufTy).Contents (Elt F)),
    StableHlo.nullary main_v10 (iotaInDim S64 32 0),
    StableHlo.unary main_v10 main_v11 (broadcastInDim S1x64 ![1] bcast_S64_S1x64_1 : (⟨S64, .i32⟩ : BufTy).Contents (Elt F) → (⟨S1x64, .i32⟩ : BufTy).Contents (Elt F)),
    StableHlo.unary main_v9 main_v12 (broadcastInDim S64x64 ![0, 1] bcast_S64x1_S64x64_0_1 : (⟨S64x1, .i32⟩ : BufTy).Contents (Elt F) → (⟨S64x64, .i32⟩ : BufTy).Contents (Elt F)),
    StableHlo.unary main_v11 main_v13 (broadcastInDim S64x64 ![0, 1] bcast_S1x64_S64x64_0_1 : (⟨S1x64, .i32⟩ : BufTy).Contents (Elt F) → (⟨S64x64, .i32⟩ : BufTy).Contents (Elt F)),
    StableHlo.binary main_v12 main_v13 main_v14 (addi : (⟨S64x64, .i32⟩ : BufTy).Contents (Elt F) → (⟨S64x64, .i32⟩ : BufTy).Contents (Elt F) → (⟨S64x64, .i32⟩ : BufTy).Contents (Elt F)),
    StableHlo.nullary main_c (constantI S_ 32 64#32),
    -- @remainder(row + column, 64), inlined: the divisor guarded against zero (@_where, inlined: its one select),
    -- the truncated remainder, and the correction that gives it the divisor's sign
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S64x64 ![] bcast_S_S64x64),
    StableHlo.TRef.binary (.of main_v14 : StableHlo.TRef sig ⟨S64x64, .i32⟩) main_call0.v3 main_call0.v4 Host.remsi,
    StableHlo.TRef.nullary main_call0.c_1 (constantI S_ 32 0#32),
    StableHlo.TRef.unary main_call0.c_1 main_call0.v5 (broadcastInDim S64x64 ![] bcast_S_S64x64),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S64x64 ![] bcast_S_S64x64),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S64x64 ![] bcast_S_S64x64),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S64x64 ![] bcast_S_S64x64),
    StableHlo.TRef.binary main_call0.v4 main_call0.v13 main_call0.v14 addi,
    StableHlo.TRef.ternary main_call0.v12 main_call0.v14 main_call0.v4 main_call0.v15 select,
    -- the remainder table laid along the gathered axis's index positions
    StableHlo.unary main_v15 main_v16 (broadcastInDim S1x64x64x1x1 ![1, 2] bcast_S64x64_S1x64x64x1x1_1_2 : (⟨S64x64, .i32⟩ : BufTy).Contents (Elt F) → (⟨S1x64x64x1x1, .i32⟩ : BufTy).Contents (Elt F)),
    -- @take_along_axis(sum, indices), inlined: negative indices wrapped, the in-range mask reduced over the
    -- index vector, the gather along the third axis, and the out-of-range positions filled with the quiet NaN
    StableHlo.TRef.nullary main_call1.c (constantI S_ 32 0#32),
    StableHlo.TRef.unary main_call1.c main_call1.v0 (broadcastInDim S1x64x64x1x1 ![] bcast_S_S1x64x64x1x1),
    StableHlo.TRef.binary (.of main_v16 : StableHlo.TRef sig ⟨S1x64x64x1x1, .i32⟩) main_call1.v0 main_call1.v1 (cmpi .slt),
    StableHlo.TRef.nullary main_call1.c_0 (constantI S_ 32 64#32),
    StableHlo.TRef.unary main_call1.c_0 main_call1.v2 (broadcastInDim S1x64x64x1x1 ![] bcast_S_S1x64x64x1x1),
    StableHlo.TRef.binary (.of main_v16 : StableHlo.TRef sig ⟨S1x64x64x1x1, .i32⟩) main_call1.v2 main_call1.v3 addi,
    StableHlo.TRef.ternary main_call1.v1 main_call1.v3 (.of main_v16 : StableHlo.TRef sig ⟨S1x64x64x1x1, .i32⟩) main_call1.v4 select,
    StableHlo.TRef.reshape main_call1.v4 main_call1.v5 rfl shapeCasts_S1x64x64x1x1_S64x64x1,
    StableHlo.TRef.nullary main_call1.c_1 (constantI S1 32 63#32),
    StableHlo.TRef.nullary main_call1.c_2 (constantI S_ 32 0#32),
    StableHlo.TRef.unary main_call1.c_2 main_call1.v6 (broadcastInDim S64x64x1 ![] bcast_S_S64x64x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S64x64x1 ![0, 1, 2] bcast_S1x1x1_S64x64x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S64x64x1_S64x64_d2 h_S_),
    StableHlo.TRef.binary (.of main_v7 : StableHlo.TRef sig ⟨S8x64x64x64x64, .f32⟩) main_call1.v5 main_call1.v13 (fun x i => Host.gather gather_S8x64x64x64x64_S64x64x1_S8x64x64x64x64_034_2_1_0_2_2_8116464 x i),
    StableHlo.TRef.unary main_call1.v12 main_call1.v14 (broadcastInDim S8x64x64x64x64 ![1, 2] bcast_S64x64_S8x64x64x64x64_1_2),
    StableHlo.TRef.nullary main_call1.cst (constant S_ .f32 0x7FC00000#32),
    StableHlo.TRef.unary main_call1.cst main_call1.v15 (broadcastInDim S8x64x64x64x64 ![] bcast_S_S8x64x64x64x64),
    StableHlo.TRef.ternary main_call1.v14 main_call1.v13 main_call1.v15 main_call1.v16 select,
    -- the block axes returned to their places and the blocks merged back into the 512×512 image
    StableHlo.unary main_v17 main_v18 ((transpose S8x64x64x64x64 [0, 1, 3, 4, 2] · transposes_S8x64x64x64x64_S8x64x64x64x64_0_1_3_4_2) : (⟨S8x64x64x64x64, .f32⟩ : BufTy).Contents (Elt F) → (⟨S8x64x64x64x64, .f32⟩ : BufTy).Contents (Elt F)),
    StableHlo.reshape main_v18 main_v19 rfl shapeCasts_S8x64x64x64x64_S8x64x64x64x8x8,
    StableHlo.unary main_v19 main_v20 ((transpose S8x64x8x64x8x64 [0, 1, 4, 2, 5, 3] · transposes_S8x64x64x64x8x8_S8x64x8x64x8x64_0_1_4_2_5_3) : (⟨S8x64x64x64x8x8, .f32⟩ : BufTy).Contents (Elt F) → (⟨S8x64x8x64x8x64, .f32⟩ : BufTy).Contents (Elt F)),
    StableHlo.reshape main_v20 main_v21 rfl shapeCasts_S8x64x8x64x8x64_S8x64x512x512 ]

-- sixty-five binds re-associated: the rewrite under the chain recurses once per statement
set_option maxRecDepth 2048 in
/-- @main is that straight line: the callees' definitions unfolded at their calls and the records at their
    fields, both sides are one chain of steps once sequencing is re-associated. -/
theorem main_eq (c : Dev nD) : main (F := F) c = seq ops := by
  simp only [main, fn_remainder.body, fn_where.body, fn_take_along_axis.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., unary_bufs_sub .., reshape_bufs_sub .., unary_bufs_sub .., reshape_bufs_sub .., unary_bufs_sub ..,
    unary_bufs_sub .., binary_bufs_sub .., nullary_bufs_sub .., unary_bufs_sub .., nullary_bufs_sub .., unary_bufs_sub ..,
    unary_bufs_sub .., unary_bufs_sub .., binary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., reshape_bufs_sub .., unary_bufs_sub .., reshape_bufs_sub ..⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the result and at the arguments

The remainder table feeds the index chain three times and is itself built from the truncated remainder four
times over, so the composed term, written out, repeats the table's whole construction dozens of times. The fold
is therefore read in two stretches: the first thirty-seven operations (through the remainder table), whose
state is then a variable known only at the two buffers the rest reads, and the remaining twenty-eight. -/

/-- The first stretch: @main's sixteen and @remainder's twenty-one, through the remainder table `main_v15`. -/
abbrev opsA : List (HloOp τ sig (Elt F)) :=
  [ StableHlo.reshape main_arg0 main_v0 rfl shapeCasts_S8x64x512x512_S8x64x8x64x8x64,
    StableHlo.unary main_v0 main_v1 ((transpose S8x64x64x64x8x8 [0, 1, 3, 5, 2, 4] · transposes_S8x64x8x64x8x64_S8x64x64x64x8x8_0_1_3_5_2_4) : (⟨S8x64x8x64x8x64, .f32⟩ : BufTy).Contents (Elt F) → (⟨S8x64x64x64x8x8, .f32⟩ : BufTy).Contents (Elt F)),
    StableHlo.reshape main_v1 main_v2 rfl shapeCasts_S8x64x64x64x8x8_S8x64x64x64x64,
    StableHlo.unary main_v2 main_v3 ((transpose S8x64x64x64x64 [0, 1, 4, 2, 3] · transposes_S8x64x64x64x64_S8x64x64x64x64_0_1_4_2_3) : (⟨S8x64x64x64x64, .f32⟩ : BufTy).Contents (Elt F) → (⟨S8x64x64x64x64, .f32⟩ : BufTy).Contents (Elt F)),
    StableHlo.reshape main_arg1 main_v4 rfl shapeCasts_S1x1x64x64x1x1_S64x64x1x1,
    StableHlo.unary main_v4 main_v5 (broadcastInDim S1x64x64x1x1 ![1, 2, 3, 4] bcast_S64x64x1x1_S1x64x64x1x1_1_2_3_4 : (⟨S64x64x1x1, .f32⟩ : BufTy).Contents (Elt F) → (⟨S1x64x64x1x1, .f32⟩ : BufTy).Contents (Elt F)),
    StableHlo.unary main_v5 main_v6 (broadcastInDim S8x64x64x64x64 ![0, 1, 2, 3, 4] bcast_S1x64x64x1x1_S8x64x64x64x64_0_1_2_3_4 : (⟨S1x64x64x1x1, .f32⟩ : BufTy).Contents (Elt F) → (⟨S8x64x64x64x64, .f32⟩ : BufTy).Contents (Elt F)),
    StableHlo.binary main_v3 main_v6 main_v7 (addf : (⟨S8x64x64x64x64, .f32⟩ : BufTy).Contents (Elt F) → (⟨S8x64x64x64x64, .f32⟩ : BufTy).Contents (Elt F) → (⟨S8x64x64x64x64, .f32⟩ : BufTy).Contents (Elt F)),
    StableHlo.nullary main_v8 (iotaInDim S64 32 0),
    StableHlo.unary main_v8 main_v9 (broadcastInDim S64x1 ![0] bcast_S64_S64x1_0 : (⟨S64, .i32⟩ : BufTy).Contents (Elt F) → (⟨S64x1, .i32⟩ : BufTy).Contents (Elt F)),
    StableHlo.nullary main_v10 (iotaInDim S64 32 0),
    StableHlo.unary main_v10 main_v11 (broadcastInDim S1x64 ![1] bcast_S64_S1x64_1 : (⟨S64, .i32⟩ : BufTy).Contents (Elt F) → (⟨S1x64, .i32⟩ : BufTy).Contents (Elt F)),
    StableHlo.unary main_v9 main_v12 (broadcastInDim S64x64 ![0, 1] bcast_S64x1_S64x64_0_1 : (⟨S64x1, .i32⟩ : BufTy).Contents (Elt F) → (⟨S64x64, .i32⟩ : BufTy).Contents (Elt F)),
    StableHlo.unary main_v11 main_v13 (broadcastInDim S64x64 ![0, 1] bcast_S1x64_S64x64_0_1 : (⟨S1x64, .i32⟩ : BufTy).Contents (Elt F) → (⟨S64x64, .i32⟩ : BufTy).Contents (Elt F)),
    StableHlo.binary main_v12 main_v13 main_v14 (addi : (⟨S64x64, .i32⟩ : BufTy).Contents (Elt F) → (⟨S64x64, .i32⟩ : BufTy).Contents (Elt F) → (⟨S64x64, .i32⟩ : BufTy).Contents (Elt F)),
    StableHlo.nullary main_c (constantI S_ 32 64#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S64x64 ![] bcast_S_S64x64),
    StableHlo.TRef.binary (.of main_v14 : StableHlo.TRef sig ⟨S64x64, .i32⟩) main_call0.v3 main_call0.v4 Host.remsi,
    StableHlo.TRef.nullary main_call0.c_1 (constantI S_ 32 0#32),
    StableHlo.TRef.unary main_call0.c_1 main_call0.v5 (broadcastInDim S64x64 ![] bcast_S_S64x64),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S64x64 ![] bcast_S_S64x64),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S64x64 ![] bcast_S_S64x64),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S64x64 ![] bcast_S_S64x64),
    StableHlo.TRef.binary main_call0.v4 main_call0.v13 main_call0.v14 addi,
    StableHlo.TRef.ternary main_call0.v12 main_call0.v14 main_call0.v4 main_call0.v15 select ]

/-- The second stretch: the table's broadcast, @take_along_axis's twenty-three, and @main's last four. -/
abbrev opsB : List (HloOp τ sig (Elt F)) :=
  [ StableHlo.unary main_v15 main_v16 (broadcastInDim S1x64x64x1x1 ![1, 2] bcast_S64x64_S1x64x64x1x1_1_2 : (⟨S64x64, .i32⟩ : BufTy).Contents (Elt F) → (⟨S1x64x64x1x1, .i32⟩ : BufTy).Contents (Elt F)),
    StableHlo.TRef.nullary main_call1.c (constantI S_ 32 0#32),
    StableHlo.TRef.unary main_call1.c main_call1.v0 (broadcastInDim S1x64x64x1x1 ![] bcast_S_S1x64x64x1x1),
    StableHlo.TRef.binary (.of main_v16 : StableHlo.TRef sig ⟨S1x64x64x1x1, .i32⟩) main_call1.v0 main_call1.v1 (cmpi .slt),
    StableHlo.TRef.nullary main_call1.c_0 (constantI S_ 32 64#32),
    StableHlo.TRef.unary main_call1.c_0 main_call1.v2 (broadcastInDim S1x64x64x1x1 ![] bcast_S_S1x64x64x1x1),
    StableHlo.TRef.binary (.of main_v16 : StableHlo.TRef sig ⟨S1x64x64x1x1, .i32⟩) main_call1.v2 main_call1.v3 addi,
    StableHlo.TRef.ternary main_call1.v1 main_call1.v3 (.of main_v16 : StableHlo.TRef sig ⟨S1x64x64x1x1, .i32⟩) main_call1.v4 select,
    StableHlo.TRef.reshape main_call1.v4 main_call1.v5 rfl shapeCasts_S1x64x64x1x1_S64x64x1,
    StableHlo.TRef.nullary main_call1.c_1 (constantI S1 32 63#32),
    StableHlo.TRef.nullary main_call1.c_2 (constantI S_ 32 0#32),
    StableHlo.TRef.unary main_call1.c_2 main_call1.v6 (broadcastInDim S64x64x1 ![] bcast_S_S64x64x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S64x64x1 ![0, 1, 2] bcast_S1x1x1_S64x64x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S64x64x1_S64x64_d2 h_S_),
    StableHlo.TRef.binary (.of main_v7 : StableHlo.TRef sig ⟨S8x64x64x64x64, .f32⟩) main_call1.v5 main_call1.v13 (fun x i => Host.gather gather_S8x64x64x64x64_S64x64x1_S8x64x64x64x64_034_2_1_0_2_2_8116464 x i),
    StableHlo.TRef.unary main_call1.v12 main_call1.v14 (broadcastInDim S8x64x64x64x64 ![1, 2] bcast_S64x64_S8x64x64x64x64_1_2),
    StableHlo.TRef.nullary main_call1.cst (constant S_ .f32 0x7FC00000#32),
    StableHlo.TRef.unary main_call1.cst main_call1.v15 (broadcastInDim S8x64x64x64x64 ![] bcast_S_S8x64x64x64x64),
    StableHlo.TRef.ternary main_call1.v14 main_call1.v13 main_call1.v15 main_call1.v16 select,
    StableHlo.unary main_v17 main_v18 ((transpose S8x64x64x64x64 [0, 1, 3, 4, 2] · transposes_S8x64x64x64x64_S8x64x64x64x64_0_1_3_4_2) : (⟨S8x64x64x64x64, .f32⟩ : BufTy).Contents (Elt F) → (⟨S8x64x64x64x64, .f32⟩ : BufTy).Contents (Elt F)),
    StableHlo.reshape main_v18 main_v19 rfl shapeCasts_S8x64x64x64x64_S8x64x64x64x8x8,
    StableHlo.unary main_v19 main_v20 ((transpose S8x64x8x64x8x64 [0, 1, 4, 2, 5, 3] · transposes_S8x64x64x64x8x8_S8x64x8x64x8x64_0_1_4_2_5_3) : (⟨S8x64x64x64x8x8, .f32⟩ : BufTy).Contents (Elt F) → (⟨S8x64x8x64x8x64, .f32⟩ : BufTy).Contents (Elt F)),
    StableHlo.reshape main_v20 main_v21 rfl shapeCasts_S8x64x8x64x8x64_S8x64x512x512 ]

/-- The line is the two stretches, one after the other. -/
theorem ops_split : (ops : List (HloOp τ sig (Elt F))) = opsA ++ opsB := rfl

/-- The fold over a concatenation is the fold over the second list from the fold over the first. -/
theorem after_split : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_split l₁ l₂]

set_option maxRecDepth 8192 in
set_option maxHeartbeats 400000 in
/-- After the first stretch the sum buffer holds the regrouped input plus the broadcast bias. -/
theorem sum_eq (V : Valuation τ sig (Elt F)) :
    after opsA V (main_v7 : DevRef τ sig)
      = addf (RefTerm.unfolded (V (main_arg0 : DevRef τ sig))) (RefTerm.biasAll (V (main_arg1 : DevRef τ sig))) := by
  after_results_simp
  rfl

set_option maxRecDepth 8192 in
set_option maxHeartbeats 400000 in
/-- After the first stretch the table buffer holds the floored remainder of `row + column` by 64. -/
theorem table_eq (V : Valuation τ sig (Elt F)) :
    after opsA V (main_v15 : DevRef τ sig) = RefTerm.shiftTab := by
  after_results_simp
  rfl

attribute [local irreducible] Host.reduce Host.gather in
set_option maxRecDepth 8192 in
set_option maxHeartbeats 400000 in
/-- The fold at the result buffer is the composed term of the two arguments' contents: the second stretch's
    operations read, from a state known only at the sum and at the table, each result at the buffer it writes
    and pass over every other; the typed references' transports are the identity at these literal references.
    The reduction over the index vector and the gather are kept folded: the equation never looks inside them. -/
theorem out_eq (V : Valuation τ sig (Elt F)) :
    after ops V (main_v21 : DevRef τ sig)
      = RefTerm.refOut (V (main_arg0 : DevRef τ sig)) (V (main_arg1 : DevRef τ sig)) := by
  have h7 := sum_eq V
  have h15 := table_eq (F := F) V
  rw [ops_split, after_split]
  generalize after opsA V = W at h7 h15 ⊢
  after_results_simp
  rw [h7, h15]
  rfl

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

/-- At the compiled mesh, for any float values, from any memory with zero counters: every weakly fair execution
    of @main terminates with the result buffer at the composed term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
          = RefTerm.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v21).trans (out_eq _), (h c main_arg0).trans (arg0_eq _), (h c main_arg1).trans (arg1_eq _)⟩)
    (run_main m ρ)

end Cert.ReferenceIdeal.RefRun

end
-- ==== Proof.RefValueInt.lean ====
/-
  The integer table the reference gathers by, read entry by entry.

  For channel `c` and slot `p` (both below 64) the sum table holds `c + p`, the divisor is 64, and every later
  step keeps the value `(c + p) mod 64`: the truncated remainder of a nonnegative word by 64 is the remainder of
  naturals, its sign corrections do not fire on a nonnegative remainder by a positive divisor, the move of negative
  start indices up by 64 does not fire either, and the in-range test `0 ≤ · ≤ 63` holds at every entry.
-/
import proofs.«120854_j83949430768099_1_alg».proof.Proof.RefTerm
import Idealize.ShloMosaic.Lib.Affine
import Idealize.ShloMosaic.Lib.IdealHost
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Facts₀ Cert.ReferenceIdeal.RefTerm
open Idealize.ShloMosaic Idealize.ShloMosaic.ValueIdx

variable [Facts]

/-! ## Words below 64 -/

/-- A natural below `2 ^ 31` read back from its word, unsigned. -/
theorem toNat_ofNat_small (m : Nat) (hm : m < 128) : (BitVec.ofNat 32 m).toNat = m := by
  rw [BitVec.toNat_ofNat]; omega

/-- … and signed. -/
theorem toInt_ofNat_small (m : Nat) (hm : m < 128) : (BitVec.ofNat 32 m).toInt = (m : Int) := by
  rw [BitVec.toInt_eq_toNat_of_lt (by rw [toNat_ofNat_small m hm]; omega), toNat_ofNat_small m hm]

/-- A small nonnegative word does not test negative. -/
theorem slt_zero_small (m : Nat) (hm : m < 128) : IntOp.cmpi .slt (BitVec.ofNat 32 m) 0#32 = 0#1 := by
  refine eq_zero_of_ne_one fun h => ?_
  rw [IntOp.cmpi_slt, toInt_ofNat_small m hm, show (0#32 : BitVec 32).toInt = 0 from by decide] at h
  omega

/-! ## The table, entry by entry -/

/-- Entry `(c, p)` of the sum of the two iotas is `c + p`. -/
theorem sumTab_apply (c p : Fin 64) : sumTab (ix2 c p) = BitVec.ofNat 32 (c.val + p.val) := by
  show IntOp.addi (BitVec.ofNat 32 c.val) (BitVec.ofNat 32 p.val) = _
  rw [IntOp.addi, BitVec.ofNat_add]

/-- The divisor is 64. -/
theorem divisor_apply (i : S_.Idx) : divisor i = 64#32 := rfl

/-- The truncated remainder of `c + p` by 64 is the naturals' remainder. -/
theorem truncRem_apply (c p : Fin 64) : truncRem (ix2 c p) = BitVec.ofNat 32 ((c.val + p.val) % 64) := by
  show IntOp.remsi .host (sumTab (ix2 c p)) 64#32 = _
  rw [sumTab_apply]
  have hc := c.isLt
  have hp := p.isLt
  apply BitVec.eq_of_toNat_eq
  rw [IntOp.toNat_remsi .host (by rw [toNat_ofNat_small _ (by omega)]; omega) 64 (by omega) (by omega),
    toNat_ofNat_small _ (by omega), toNat_ofNat_small _ (by omega)]

/-- The floored remainder is the truncated one: neither sign test fires. -/
theorem shiftTab_apply (c p : Fin 64) : shiftTab (ix2 c p) = BitVec.ofNat 32 ((c.val + p.val) % 64) := by
  show Scalar.select
      (IntOp.andi (IntOp.cmpi .ne (IntOp.cmpi .slt (truncRem (ix2 c p)) 0#32) (IntOp.cmpi .slt (64#32 : BitVec 32) 0#32))
        (IntOp.cmpi .ne (truncRem (ix2 c p)) 0#32))
      (IntOp.addi (truncRem (ix2 c p)) 64#32) (truncRem (ix2 c p)) = _
  rw [truncRem_apply, slt_zero_small _ (by omega)]
  generalize IntOp.cmpi .ne (BitVec.ofNat 32 ((c.val + p.val) % 64)) 0#32 = e
  rw [show IntOp.andi (IntOp.cmpi .ne (0#1 : BitVec 1) (IntOp.cmpi .slt (64#32 : BitVec 32) 0#32)) e = 0#1 from by
    revert e; decide]
  exact select_zero _ _

/-- The start index of channel `c`, slot `p`: the table's entry, not moved. -/
theorem startIdx_apply (c p : Fin 64) (z : Fin 1) : startIdx (ix3 c p z) = BitVec.ofNat 32 ((c.val + p.val) % 64) := by
  unfold startIdx
  refine (shapeCast_apply _ _ (ix3 c p z) (ix5 (0 : Fin 1) c p (0 : Fin 1) (0 : Fin 1)) ?_).trans ?_
  · rw [Shape.rowMajor_val_five, Shape.rowMajor_val_three]
    have := z.isLt
    show ((((0 : Nat) * 64 + c.val) * 64 + p.val) * 1 + 0) * 1 + 0 = (c.val * 64 + p.val) * 1 + z.val
    omega
  · show Scalar.select (IntOp.cmpi .slt (shiftTab (ix2 c p)) 0#32) (IntOp.addi (shiftTab (ix2 c p)) 64#32) (shiftTab (ix2 c p)) = _
    rw [shiftTab_apply, slt_zero_small _ (by omega)]
    exact select_zero _ _

/-! ## The in-range test -/

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- Every start index lies in `[0, 63]`. -/
theorem inRange_apply (c p : Fin 64) : inRange (ix2 c p) = 1#1 := by
  unfold inRange
  rw [Host.reduce_eq_foldl]
  refine foldl_andi_one _ (fun i => ?_) _
  obtain ⟨c', p', z, rfl⟩ : ∃ (c' p' : Fin 64) (z : Fin 1), i = ix3 c' p' z := ⟨i 0, i 1, i 2, eq_ix3 i⟩
  show IntOp.andi (IntOp.cmpi .sge (startIdx (ix3 c' p' z)) 0#32) (IntOp.cmpi .sle (startIdx (ix3 c' p' z)) 63#32) = 1#1
  rw [startIdx_apply, IntOp.andi_eq_one, IntOp.cmpi_sge, IntOp.cmpi_sle,
    toInt_ofNat_small ((c'.val + p'.val) % 64) (by omega),
    show (0#32 : BitVec 32).toInt = 0 from by decide, show (63#32 : BitVec 32).toInt = 63 from by decide]
  omega

end Cert.ReferenceIdeal.RefValue

end
-- ==== Proof.RefValueLayout.lean ====
/-
  The reference's layout operations read at an index.

  Cutting the image into patches, spreading the bias, and laying the patches back are chains of reshapes, transposes
  and broadcasts: each reads, at an index of its result, its operand at one index. Read through the chain:
  patch `p` holds, at `(a, d)`, the image's element at row `64 (p / 8) + a`, column `64 (p % 8) + d`; the spread bias
  holds `ap[0, 0, c, p, 0, 0]` at every element of patch `p` of channel `c`; and the image laid back holds, at row `h`,
  column `w`, element `(h % 64, w % 64)` of patch `8 (h / 64) + w / 64`.
-/
import proofs.«120854_j83949430768099_1_alg».proof.Proof.RefTerm
import Idealize.ShloMosaic.Lib.ValueIdx
import Idealize.ShloMosaic.Lib.ValueIdxRank6
import Idealize.ShloMosaic.Lib.Pipeline.Value

noncomputable section

namespace Cert.ReferenceIdeal.RefValue

open Cert.ReferenceIdeal Cert.ReferenceIdeal.Facts₀ Cert.ReferenceIdeal.RefTerm
open Idealize.ShloMosaic Idealize.ShloMosaic.ValueIdx

variable {F : FTy → Type} [FloatOps F] [Facts]

/-- The image cut into patches: patch `p` at `(a, d)` is the image at row `64 (p / 8) + a`, column `64 (p % 8) + d`. -/
theorem unfolded_apply (x : FVec F S8x64x512x512 .f32) (b : Fin 8) (c p a d : Fin 64) :
    unfolded x (ix5 b c p a d)
      = x (ix4 b c (⟨p.val / 8 * 64 + a.val, by have := p.isLt; have := a.isLt; omega⟩ : Fin 512)
          (⟨p.val % 8 * 64 + d.val, by have := d.isLt; omega⟩ : Fin 512)) := by
  have hp := p.isLt
  unfold unfolded
  -- patch number last → patch number third
  refine (transpose_apply _ _ _ (ix5 b c p a d) (ix5 b c a d p)
    (fun e => match e with | ⟨0, _⟩ => rfl | ⟨1, _⟩ => rfl | ⟨2, _⟩ => rfl | ⟨3, _⟩ => rfl | ⟨4, _⟩ => rfl)).trans ?_
  -- the patch number split into its grid row and column
  refine (shapeCast_apply _ _ (ix5 b c a d p)
    (ix6 b c a d (⟨p.val / 8, by omega⟩ : Fin 8) (⟨p.val % 8, by omega⟩ : Fin 8)) ?_).trans ?_
  · rw [Shape.rowMajor_val_six, Shape.rowMajor_val_five]
    show ((((b.val * 64 + c.val) * 64 + a.val) * 64 + d.val) * 8 + p.val / 8) * 8 + p.val % 8
      = (((b.val * 64 + c.val) * 64 + a.val) * 64 + d.val) * 64 + p.val
    omega
  -- the grid coordinates back beside the in-patch ones
  refine (transpose_apply _ _ _ (ix6 b c a d (⟨p.val / 8, by omega⟩ : Fin 8) (⟨p.val % 8, by omega⟩ : Fin 8))
    (ix6 b c (⟨p.val / 8, by omega⟩ : Fin 8) a (⟨p.val % 8, by omega⟩ : Fin 8) d)
    (fun e => match e with
      | ⟨0, _⟩ => rfl | ⟨1, _⟩ => rfl | ⟨2, _⟩ => rfl | ⟨3, _⟩ => rfl | ⟨4, _⟩ => rfl | ⟨5, _⟩ => rfl)).trans ?_
  -- rows and columns joined
  refine shapeCast_apply _ _ _ _ ?_
  rw [Shape.rowMajor_val_four, Shape.rowMajor_val_six]
  show ((b.val * 64 + c.val) * 512 + (p.val / 8 * 64 + a.val)) * 512 + (p.val % 8 * 64 + d.val)
    = ((((b.val * 64 + c.val) * 8 + p.val / 8) * 64 + a.val) * 8 + p.val % 8) * 64 + d.val
  omega

/-- The bias spread over batches and patch elements: `ap[0, 0, c, p, 0, 0]` everywhere in patch `p` of channel `c`. -/
theorem biasAll_apply (ap : FVec F S1x1x64x64x1x1 .f32) (b : Fin 8) (c p a d : Fin 64) :
    biasAll ap (ix5 b c p a d) = ap (ix6 (0 : Fin 1) (0 : Fin 1) c p (0 : Fin 1) (0 : Fin 1)) := by
  unfold biasAll
  refine (broadcastInDim_apply _ _ _ (ix5 b c p a d) (ix5 (0 : Fin 1) c p (0 : Fin 1) (0 : Fin 1))
    (fun e => match e with | ⟨0, _⟩ => rfl | ⟨1, _⟩ => rfl | ⟨2, _⟩ => rfl | ⟨3, _⟩ => rfl | ⟨4, _⟩ => rfl)).trans ?_
  refine (broadcastInDim_apply _ _ _ (ix5 (0 : Fin 1) c p (0 : Fin 1) (0 : Fin 1)) (ix4 c p (0 : Fin 1) (0 : Fin 1))
    (fun e => match e with | ⟨0, _⟩ => rfl | ⟨1, _⟩ => rfl | ⟨2, _⟩ => rfl | ⟨3, _⟩ => rfl)).trans ?_
  refine shapeCast_apply _ _ _ _ ?_
  rw [Shape.rowMajor_val_six, Shape.rowMajor_val_four]
  show (((((0 : Nat) * 1 + 0) * 64 + c.val) * 64 + p.val) * 1 + 0) * 1 + 0 = ((c.val * 64 + p.val) * 1 + 0) * 1 + 0
  omega

/-- The patches laid back: row `h`, column `w` is element `(h % 64, w % 64)` of patch `8 (h / 64) + w / 64`. -/
theorem folded_apply (y : FVec F S8x64x64x64x64 .f32) (b : Fin 8) (c : Fin 64) (h w : Fin 512) :
    folded y (ix4 b c h w)
      = y (ix5 b c (⟨h.val / 64 * 8 + w.val / 64, by have := h.isLt; have := w.isLt; omega⟩ : Fin 64)
          (⟨h.val % 64, Nat.mod_lt _ (by norm_num)⟩ : Fin 64) (⟨w.val % 64, Nat.mod_lt _ (by norm_num)⟩ : Fin 64)) := by
  have hh := h.isLt
  have hw := w.isLt
  unfold folded
  -- rows and columns split into grid and in-patch coordinates
  refine (shapeCast_apply _ _ (ix4 b c h w)
    (ix6 b c (⟨h.val / 64, by omega⟩ : Fin 8) (⟨h.val % 64, by omega⟩ : Fin 64)
      (⟨w.val / 64, by omega⟩ : Fin 8) (⟨w.val % 64, by omega⟩ : Fin 64)) ?_).trans ?_
  · rw [Shape.rowMajor_val_six, Shape.rowMajor_val_four]
    show ((((b.val * 64 + c.val) * 8 + h.val / 64) * 64 + h.val % 64) * 8 + w.val / 64) * 64 + w.val % 64
      = ((b.val * 64 + c.val) * 512 + h.val) * 512 + w.val
    omega
  -- the in-patch coordinates before the grid ones
  refine (transpose_apply _ _ _
    (ix6 b c (⟨h.val / 64, by omega⟩ : Fin 8) (⟨h.val % 64, by omega⟩ : Fin 64)
      (⟨w.val / 64, by omega⟩ : Fin 8) (⟨w.val % 64, by omega⟩ : Fin 64))
    (ix6 b c (⟨h.val % 64, by omega⟩ : Fin 64) (⟨w.val % 64, by omega⟩ : Fin 64)
      (⟨h.val / 64, by omega⟩ : Fin 8) (⟨w.val / 64, by omega⟩ : Fin 8))
    (fun e => match e with
      | ⟨0, _⟩ => rfl | ⟨1, _⟩ => rfl | ⟨2, _⟩ => rfl | ⟨3, _⟩ => rfl | ⟨4, _⟩ => rfl | ⟨5, _⟩ => rfl)).trans ?_
  -- the grid coordinates joined into the patch number
  refine (shapeCast_apply _ _ _
    (ix5 b c (⟨h.val % 64, by omega⟩ : Fin 64) (⟨w.val % 64, by omega⟩ : Fin 64)
      (⟨h.val / 64 * 8 + w.val / 64, by omega⟩ : Fin 64)) ?_).trans ?_
  · rw [Shape.rowMajor_val_five, Shape.rowMajor_val_six]
    show (((b.val * 64 + c.val) * 64 + h.val % 64) * 64 + w.val % 64) * 64 + (h.val / 64 * 8 + w.val / 64)
      = ((((b.val * 64 + c.val) * 64 + h.val % 64) * 64 + w.val % 64) * 8 + h.val / 64) * 8 + w.val / 64
    omega
  -- patch number third
  exact transpose_apply _ _ _ _ _
    (fun e => match e with | ⟨0, _⟩ => rfl | ⟨1, _⟩ => rfl | ⟨2, _⟩ => rfl | ⟨3, _⟩ => rfl | ⟨4, _⟩ => rfl)

end Cert.ReferenceIdeal.RefValue

end
-- ==== Proof.RefValueGather.lean ====
/-
  The reference's gather read at an index.

  The gather takes, for result index `(b, c, p, a, d)`, the operand's element whose patch coordinate (axis 2) is the start
  index stored for channel `c` and slot `p` — read signed and clamped into `[0, 63]` — and whose other coordinates
  are the result's own: axis 1 is a batching axis shared by the operand and the start indices, axes 0, 3 and 4 are
  offset axes whose slices are whole.
-/
import proofs.«120854_j83949430768099_1_alg».proof.Proof.RefTerm
import Idealize.ShloMosaic.Lib.ValueIdx

noncomputable section

namespace Cert.ReferenceIdeal.RefValue

open Cert.ReferenceIdeal Cert.ReferenceIdeal.Facts₀ Cert.ReferenceIdeal.RefTerm
open Idealize.ShloMosaic Idealize.ShloMosaic.ValueIdx

variable [Facts]

local notation "gD" => gather_S8x64x64x64x64_S64x64x1_S8x64x64x64x64_034_2_1_0_2_2_8116464

/-- The start index map names the patch axis alone. -/
theorem gather_startIndexMap : GatherDims.startIndexMap gD = ([2] : List (Fin 5)) := rfl

/-- The channel axis is the one batching axis. -/
theorem gather_operandBatchingDims : GatherDims.operandBatchingDims gD = ([1] : List (Fin 5)) := rfl

/-- The operand's axes that are neither collapsed nor batching: batch, and the two in-patch axes. -/
theorem gather_sKept : GatherDims.sKept gD = ([0, 3, 4] : List (Fin 5)) := by
  show S8x64x64x64x64.kept (([2] : List (Fin 5)) ++ [1]) = _
  decide

/-- The gather at `(b, c, p, a, d)`: the operand at `(b, c, q, a, d)` with `q` the start index of `(c, p)`, signed, clamped. -/
theorem gather_apply {α : Type} {w : Nat} (u : S8x64x64x64x64.Idx → α) (idx : IVec S64x64x1 w)
    (b : Fin 8) (c p a d : Fin 64) :
    Host.gather gD u idx (ix5 b c p a d)
      = u (ix5 b c (⟨min (idx (ix3 c p (0 : Fin 1))).toInt.toNat 63, by omega⟩ : Fin 64) a d) := by
  unfold Host.gather
  refine congrArg u (funext fun e => Fin.ext ?_)
  match e with
  | ⟨0, _⟩ =>
    show GatherDims.start gD (ix5 b c p a d) idx 0 + GatherDims.batchCoord gD (ix5 b c p a d) 0
      + GatherDims.offCoord gD (ix5 b c p a d) 0 = b.val
    have h1 : GatherDims.start gD (ix5 b c p a d) idx 0 = 0 := by unfold GatherDims.start; exact dif_neg (by rw [gather_startIndexMap]; decide)
    have h3 : GatherDims.offCoord gD (ix5 b c p a d) 0 = b.val := by
      unfold GatherDims.offCoord; rw [dif_pos (by rw [gather_sKept]; decide)]; rfl
    rw [h1, GatherDims.batchCoord_eq_zero _ _ _ (by rw [gather_operandBatchingDims]; decide), h3]
    omega
  | ⟨1, _⟩ =>
    show GatherDims.start gD (ix5 b c p a d) idx 1 + GatherDims.batchCoord gD (ix5 b c p a d) 1
      + GatherDims.offCoord gD (ix5 b c p a d) 1 = c.val
    have h2 : GatherDims.batchCoord gD (ix5 b c p a d) 1 = c.val := by
      unfold GatherDims.batchCoord; rw [dif_pos (by rw [gather_operandBatchingDims]; decide)]; rfl
    rw [GatherDims.start_batching _ _ _ _ (by rw [gather_operandBatchingDims]; decide), h2,
      GatherDims.offCoord_eq_zero _ _ _ (by rw [gather_sKept]; decide)]
    omega
  | ⟨2, _⟩ =>
    show GatherDims.start gD (ix5 b c p a d) idx 2 + GatherDims.batchCoord gD (ix5 b c p a d) 2
      + GatherDims.offCoord gD (ix5 b c p a d) 2 = min (idx (ix3 c p (0 : Fin 1))).toInt.toNat 63
    rw [GatherDims.batchCoord_eq_zero _ _ _ (by rw [gather_operandBatchingDims]; decide),
      GatherDims.offCoord_eq_zero _ _ _ (by rw [gather_sKept]; decide)]
    simp only [Nat.add_zero]
    unfold GatherDims.start
    rw [dif_pos (show (2 : Fin 5) ∈ GatherDims.startIndexMap gD from by rw [gather_startIndexMap]; decide)]
    have hsi : GatherDims.siIdx gD (ix5 b c p a d) ⟨List.idxOf (2 : Fin 5) (GatherDims.startIndexMap gD),
        List.idxOf_lt_length_iff.2 (by rw [gather_startIndexMap]; decide)⟩ = ix3 c p (0 : Fin 1) := by
      funext e'; refine Fin.ext ?_
      match e' with
      | ⟨0, _⟩ => rfl
      | ⟨1, _⟩ => rfl
      | ⟨2, _⟩ => rfl
    rw [hsi]
    rfl
  | ⟨3, _⟩ =>
    show GatherDims.start gD (ix5 b c p a d) idx 3 + GatherDims.batchCoord gD (ix5 b c p a d) 3
      + GatherDims.offCoord gD (ix5 b c p a d) 3 = a.val
    have h1 : GatherDims.start gD (ix5 b c p a d) idx 3 = 0 := by unfold GatherDims.start; exact dif_neg (by rw [gather_startIndexMap]; decide)
    have h3 : GatherDims.offCoord gD (ix5 b c p a d) 3 = a.val := by
      unfold GatherDims.offCoord; rw [dif_pos (by rw [gather_sKept]; decide)]; rfl
    rw [h1, GatherDims.batchCoord_eq_zero _ _ _ (by rw [gather_operandBatchingDims]; decide), h3]
    omega
  | ⟨4, _⟩ =>
    show GatherDims.start gD (ix5 b c p a d) idx 4 + GatherDims.batchCoord gD (ix5 b c p a d) 4
      + GatherDims.offCoord gD (ix5 b c p a d) 4 = d.val
    have h1 : GatherDims.start gD (ix5 b c p a d) idx 4 = 0 := by unfold GatherDims.start; exact dif_neg (by rw [gather_startIndexMap]; decide)
    have h3 : GatherDims.offCoord gD (ix5 b c p a d) 4 = d.val := by
      unfold GatherDims.offCoord; rw [dif_pos (by rw [gather_sKept]; decide)]; rfl
    rw [h1, GatherDims.batchCoord_eq_zero _ _ _ (by rw [gather_operandBatchingDims]; decide), h3]
    omega

end Cert.ReferenceIdeal.RefValue

end
-- ==== Proof.RefValue.lean ====
/-
  The reference's composed term read index by index.

  With the table entry `(c + p) mod 64` as the start index of channel `c`, slot `p`, always in range, the guarded gather
  replaces patch `p` of channel `c` by patch `(c + p) mod 64`. Read through the fold, the gather, the addition and the
  unfold, the result at row `h = 64 i + a`, column `w = 64 j + d` of channel `c` is the image at row `64 (q / 8) + a`,
  column `64 (q % 8) + d` plus `ap[0, 0, c, q, 0, 0]`, where `q = (c + (8 i + j)) mod 64`: the result function of the
  specification, whose patch number is written `(8 i + j + c) mod 64`.
-/
import proofs.«120854_j83949430768099_1_alg».proof.Proof.Spec
import proofs.«120854_j83949430768099_1_alg».proof.Proof.RefTerm
import proofs.«120854_j83949430768099_1_alg».proof.Proof.Gen.ReferenceIdeal
import proofs.«120854_j83949430768099_1_alg».proof.Proof.RefValueInt
import proofs.«120854_j83949430768099_1_alg».proof.Proof.RefValueLayout
import proofs.«120854_j83949430768099_1_alg».proof.Proof.RefValueGather

noncomputable section

namespace Cert.ReferenceIdeal.RefValue

open Cert.ReferenceIdeal Cert.ReferenceIdeal.Facts₀ Cert.ReferenceIdeal.RefTerm
open Idealize.ShloMosaic Idealize.ShloMosaic.ValueIdx

section
variable {F : FTy → Type} [FloatOps F] [Facts]

/-- The gather by the table: patch `p` of channel `c` is the operand's patch `(c + p) mod 64`. -/
theorem gather_startIdx_apply {α : Type} (u : S8x64x64x64x64.Idx → α) (b : Fin 8) (c p a d : Fin 64) :
    Host.gather gather_S8x64x64x64x64_S64x64x1_S8x64x64x64x64_034_2_1_0_2_2_8116464 u startIdx (ix5 b c p a d)
      = u (ix5 b c (⟨(c.val + p.val) % 64, Nat.mod_lt _ (by norm_num)⟩ : Fin 64) a d) := by
  rw [gather_apply]
  have hq : min (startIdx (ix3 c p (0 : Fin 1))).toInt.toNat 63 = (c.val + p.val) % 64 := by
    rw [startIdx_apply, toInt_ofNat_small _ (by omega), Int.toNat_natCast]
    omega
  exact congrArg (fun q : Fin 64 => u (ix5 b c q a d)) (Fin.ext hq)

/-- The guarded gather: the in-range test holds everywhere, so the filler is never taken. -/
theorem taken_apply (u : FVec F S8x64x64x64x64 .f32) (b : Fin 8) (c p a d : Fin 64) :
    taken u (ix5 b c p a d) = u (ix5 b c (⟨(c.val + p.val) % 64, Nat.mod_lt _ (by norm_num)⟩ : Fin 64) a d) := by
  unfold taken
  rw [select_apply]
  have hc : broadcastInDim S8x64x64x64x64 ![1, 2] bcast_S64x64_S8x64x64x64x64_1_2 inRange (ix5 b c p a d) = 1#1 :=
    (broadcastInDim_apply _ _ _ (ix5 b c p a d) (ix2 c p)
      (fun e => match e with | ⟨0, _⟩ => rfl | ⟨1, _⟩ => rfl)).trans (inRange_apply c p)
  rw [hc, select_one, gather_startIdx_apply]

/-- The reference's result at batch `b`, channel `c`, row `h`, column `w`. -/
theorem refOut_apply (x : FVec Ideal S8x64x512x512 .f32) (ap : FVec Ideal S1x1x64x64x1x1 .f32)
    (b : Fin 8) (c : Fin 64) (h w : Fin 512) :
    refOut (F := Ideal) x ap (ix4 b c h w) = Cert.Spec.Gat x ap b c h w := by
  have hh := h.isLt
  have hw := w.isLt
  have hc := c.isLt
  unfold refOut
  rw [folded_apply, taken_apply, addf_apply, unfolded_apply, biasAll_apply]
  unfold Cert.Spec.Gat
  -- the two spellings of the source patch's number
  have hq : (c.val + (h.val / 64 * 8 + w.val / 64)) % 64 = Cert.Spec.src c.val (h.val / 64) (w.val / 64) := by
    unfold Cert.Spec.src; omega
  refine congrArg₂ (· + ·) (congrArg x ?_) (congrArg ap ?_)
  · exact congrArg₂ (fun r s : Fin 512 => ix4 b c r s)
      (Fin.ext (by show (c.val + (h.val / 64 * 8 + w.val / 64)) % 64 / 8 * 64 + h.val % 64 = _; rw [hq]))
      (Fin.ext (by show (c.val + (h.val / 64 * 8 + w.val / 64)) % 64 % 8 * 64 + w.val % 64 = _; rw [hq]))
  · exact congrArg (fun q : Fin 64 => ix6 (0 : Fin 1) (0 : Fin 1) c q (0 : Fin 1) (0 : Fin 1)) (Fin.ext hq)

end

/-- The reference's composed term is the specification's result function. -/
theorem refOut_eq (x : FVec Ideal S8x64x512x512 .f32) (ap : FVec Ideal S1x1x64x64x1x1 .f32) :
    refOut (F := Ideal) x ap = Cert.Spec.G x ap := by
  funext i
  obtain ⟨b, c, h, w, rfl⟩ : ∃ (b : Fin 8) (c : Fin 64) (h w : Fin 512), i = ix4 b c h w :=
    ⟨i 0, i 1, i 2, i 3, eq_ix4 i⟩
  rw [Cert.Spec.G_ix4]
  exact refOut_apply x ap b c h w

end Cert.ReferenceIdeal.RefValue

end
-- ==== Proof.lean ====
/-
  The kernel and its reference compute the same array.

  Both take an image batch `x : [8, 64, 512, 512]` and a bias `ap : [1, 1, 64, 64, 1, 1]`. Each channel's 512 × 512
  image is an 8 × 8 grid of 64 × 64 patches, numbered `8 i + j`. Every element of patch `q` of channel `c` is
  raised by `ap[c, q]`, and the result's patch `p` of channel `c` is the raised patch `(p + c) mod 64` (`Spec.G`).

  The reference does this with reshapes and transposes around a gather whose start indices are the table
  `(c + p) mod 64`, computed on integers. The kernel instead multiplies, channel by channel, a 64 × 64 selection
  matrix — one at `(p, (p + c) mod 64)`, zero elsewhere, computed on the host from the same remainder — with the
  64 × 4096 matrix of flattened raised patches. Over the extended reals a sum of sixty-three zero products and one
  product by one is that one factor (`0 · x = 0` for every extended real `x`, and adding zeros changes nothing), so
  each product row is the selected patch, and no finiteness of the inputs is needed.

  The frames of the two kernel programs and the kernel's blockwise value are the generated modules'; the reference's
  run is read off its list of operations (`RefRun`), its composed term index by index in `RefValue`, the kernel's
  stored value in `Payload`, the host tables in `HostTables` / `OneHot`, and the blocks are put together in
  `KernelValue`. Nothing was rewritten by the idealization, so `preserves` is trivial.
-/
import proofs.«120854_j83949430768099_1_alg».proof.Defs
import proofs.«120854_j83949430768099_1_alg».proof.Proof.Gen.Kernel
import proofs.«120854_j83949430768099_1_alg».proof.Proof.Gen.Kernel.Skeleton
import proofs.«120854_j83949430768099_1_alg».proof.Proof.Gen.Kernel.Launch
import proofs.«120854_j83949430768099_1_alg».proof.Proof.Gen.Kernel.Points
import proofs.«120854_j83949430768099_1_alg».proof.Proof.Gen.Kernel.Frame
import proofs.«120854_j83949430768099_1_alg».proof.Proof.Gen.KernelIdeal
import proofs.«120854_j83949430768099_1_alg».proof.Proof.Gen.KernelIdeal.Skeleton
import proofs.«120854_j83949430768099_1_alg».proof.Proof.Gen.KernelIdeal.Launch
import proofs.«120854_j83949430768099_1_alg».proof.Proof.Gen.KernelIdeal.Points
import proofs.«120854_j83949430768099_1_alg».proof.Proof.Gen.KernelIdeal.Frame
import proofs.«120854_j83949430768099_1_alg».proof.Proof.Gen.KernelIdeal.Value
import proofs.«120854_j83949430768099_1_alg».proof.Proof.Gen.ReferenceIdeal
import proofs.«120854_j83949430768099_1_alg».proof.Proof.Gen.Pre_finite_inputs
import proofs.«120854_j83949430768099_1_alg».proof.Proof.KernelValue
import proofs.«120854_j83949430768099_1_alg».proof.Proof.RefRun
import proofs.«120854_j83949430768099_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs end with the result array at `Spec.G` of the arguments. -/
theorem algebraic : Cert.algebraic_KernelIdeal_ReferenceIdeal := by
  intro m ρ m' ρ' _ hagree
  refine ⟨fun c => Cert.KernelIdeal.KernelValue.Gm m c, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
